-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S2x50x32 : Shape := ⟨3, ![2, 50, 32]⟩
abbrev S32 : Shape := ⟨1, ![32]⟩
abbrev S2x32x10 : Shape := ⟨3, ![2, 32, 10]⟩
abbrev S10 : Shape := ⟨1, ![10]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S2x50x32 : S_.BroadcastsInDim S2x50x32 (![] : Fin 0 → Fin S2x50x32.rank)
  reducesTo_S2x50x32_S_d0_1_2 : S2x50x32.ReducesTo [0, 1, 2] S_
  bcast_S_S32 : S_.BroadcastsInDim S32 (![] : Fin 0 → Fin S32.rank)
  reducesTo_S32_S_d0 : S32.ReducesTo [0] S_
  bcast_S_S2x32x10 : S_.BroadcastsInDim S2x32x10 (![] : Fin 0 → Fin S2x32x10.rank)
  reducesTo_S2x32x10_S_d0_1_2 : S2x32x10.ReducesTo [0, 1, 2] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S2x32x10 1) : IVec S_ 1 :=
  let main_c_5 : IVec S_ 1 := constantI S_ 1 1#1
  let main_v17 : IVec S_ 1 := (fun x v => Host.reduce IntOp.andi x v reducesTo_S2x32x10_S_d0_1_2 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x50 .f32) (main_arg1 : IVec S2x1600000 32) (main_arg2 : FVec F S2x50x32 .f32) (main_arg3 : FVec F S32 .f32) (main_arg4 : FVec F S2x32x10 .f32) (main_arg5 : FVec F S10 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S2x50x32 .f32 := Host.absf main_arg2
  let main_cst_0 : FVec F S_ .f32 := constant S_ .f32 0x7F800000#32
  let main_v5 : FVec F S2x50x32 .f32 := broadcastInDim S2x50x32 ![] bcast_S_S2x50x32 main_cst_0
  let main_v6 : IVec S2x50x32 1 := cmpf .olt main_v4 main_v5
  let main_c_1 : IVec S_ 1 := constantI S_ 1 1#1
  let main_v7 : IVec S_ 1 := (fun x v => Host.reduce IntOp.andi x v reducesTo_S2x50x32_S_d0_1_2 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x32x10 .f32 := Host.absf main_arg4
  let main_cst_4 : FVec F S_ .f32 := constant S_ .f32 0x7F800000#32
  let main_v15 : FVec F S2x32x10 .f32 := broadcastInDim S2x32x10 ![] bcast_S_S2x32x10 main_cst_4
  let main_v16 : IVec S2x32x10 1 := cmpf .olt main_v14 main_v15
  fn_part1 (F := F) main_arg5 main_v13 main_v16
-- ==== Kernel.lean ====
abbrev S100000x50 : Shape := ⟨2, ![100000, 50]⟩
abbrev S2x1600000 : Shape := ⟨2, ![2, 1600000]⟩
abbrev S2x50x32 : Shape := ⟨3, ![2, 50, 32]⟩
abbrev S32 : Shape := ⟨1, ![32]⟩
abbrev S2x32x10 : Shape := ⟨3, ![2, 32, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x50 : Shape := ⟨2, ![1600000, 50]⟩
abbrev S1x50x32 : Shape := ⟨3, ![1, 50, 32]⟩
abbrev S50x32 : Shape := ⟨2, ![50, 32]⟩
abbrev S100000x32 : Shape := ⟨2, ![100000, 32]⟩
abbrev S2000x50 : Shape := ⟨2, ![2000, 50]⟩
abbrev S2000x32 : Shape := ⟨2, ![2000, 32]⟩
abbrev S1x32 : Shape := ⟨2, ![1, 32]⟩
abbrev S1600000x32 : Shape := ⟨2, ![1600000, 32]⟩
abbrev S1x32x10 : Shape := ⟨3, ![1, 32, 10]⟩
abbrev S32x10 : Shape := ⟨2, ![32, 10]⟩
abbrev S100000x10 : Shape := ⟨2, ![100000, 10]⟩
abbrev S2000x10 : Shape := ⟨2, ![2000, 10]⟩
abbrev S1x10 : Shape := ⟨2, ![1, 10]⟩
abbrev S2000 : Shape := ⟨1, ![2000]⟩
abbrev S2000x1 : Shape := ⟨2, ![2000, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S2x50x32, .f32⟩
  | .hbm, ⟨3, _⟩ => ⟨S32, .f32⟩
  | .hbm, ⟨4, _⟩ => ⟨S2x32x10, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x50, .f32⟩
  | .hbm, ⟨57, _⟩ => ⟨S1600000x50, .f32⟩
  | .hbm, ⟨58, _⟩ => ⟨S1600000x50, .f32⟩
  | .hbm, ⟨59, _⟩ => ⟨S_, .f32⟩
  | .hbm, ⟨60, _⟩ => ⟨S100000x50, .f32⟩
  | .hbm, ⟨61, _⟩ => ⟨S1600000x1, .i32⟩
  | .hbm, ⟨62, _⟩ => ⟨S100000x50, .f32⟩
  | .hbm, ⟨63, _⟩ => ⟨S1x50x32, .f32⟩
  | .hbm, ⟨64, _⟩ => ⟨S50x32, .f32⟩
  | .hbm, ⟨65, _⟩ => ⟨S1x50x32, .f32⟩
  | .hbm, ⟨66, _⟩ => ⟨S50x32, .f32⟩
  | .hbm, ⟨67, _⟩ => ⟨S100000x32, .f32⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x32, .f32⟩
  | .hbm, ⟨78, _⟩ => ⟨S1600000x32, .f32⟩
  | .hbm, ⟨79, _⟩ => ⟨S1600000x32, .f32⟩
  | .hbm, ⟨80, _⟩ => ⟨S_, .f32⟩
  | .hbm, ⟨81, _⟩ => ⟨S100000x32, .f32⟩
  | .hbm, ⟨82, _⟩ => ⟨S1600000x1, .i32⟩
  | .hbm, ⟨83, _⟩ => ⟨S100000x32, .f32⟩
  | .hbm, ⟨84, _⟩ => ⟨S1x32x10, .f32⟩
  | .hbm, ⟨85, _⟩ => ⟨S32x10, .f32⟩
  | .hbm, ⟨86, _⟩ => ⟨S1x32x10, .f32⟩
  | .hbm, ⟨87, _⟩ => ⟨S32x10, .f32⟩
  | .hbm, ⟨88, _⟩ => ⟨S100000x10, .f32⟩
  | .local _ .vmem, ⟨0, _⟩ => ⟨S2000x50, .f32⟩
  | .local _ .vmem, ⟨1, _⟩ => ⟨S2000x50, .f32⟩
  | .local _ .vmem, ⟨2, _⟩ => ⟨S2000x50, .f32⟩
  | .local _ .vmem, ⟨3, _⟩ => ⟨S2000x50, .f32⟩
  | .local _ .vmem, ⟨4, _⟩ => ⟨S50x32, .f32⟩
  | .local _ .vmem, ⟨5, _⟩ => ⟨S50x32, .f32⟩
  | .local _ .vmem, ⟨6, _⟩ => ⟨S32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S32x10, .f32⟩
  | .local _ .vmem, ⟨14, _⟩ => ⟨S32x10, .f32⟩
  | .local _ .vmem, ⟨15, _⟩ => ⟨S10, .f32⟩
  | .local _ .vmem, ⟨16, _⟩ => ⟨S2000x10, .f32⟩
  | .local _ .vmem, ⟨17, _⟩ => ⟨S2000x10, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  slices_S2x50x32_S1x50x32_0_0_0 : S2x50x32.Slices ![0, 0, 0] S1x50x32
  shapeCasts_S1x50x32_S50x32 : S1x50x32.ShapeCasts S50x32
  slices_S2x50x32_S1x50x32_1_0_0 : S2x50x32.Slices ![1, 0, 0] S1x50x32
  inb_S2000x50_S2000x50_0_0 : ∀ a, (![0, 0] : Fin 2 → Nat) a + S2000x50.size a ≤ S2000x50.size a
  h_S2000x50 : 0 < S2000x50.numel
  bitsLt_bf16_f32 : FTy.bits .bf16 < FTy.bits .f32
  shapeCasts_S2000x50_S2000x50 : S2000x50.ShapeCasts S2000x50
  inb_S50x32_S50x32_0_0 : ∀ a, (![0, 0] : Fin 2 → Nat) a + S50x32.size a ≤ S50x32.size a
  h_S50x32 : 0 < S50x32.numel
  shapeCasts_S50x32_S50x32 : S50x32.ShapeCasts S50x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x32x10_S1x32x10_0_0_0 : S2x32x10.Slices ![0, 0, 0] S1x32x10
  shapeCasts_S1x32x10_S32x10 : S1x32x10.ShapeCasts S32x10
  slices_S2x32x10_S1x32x10_1_0_0 : S2x32x10.Slices ![1, 0, 0] S1x32x10
  shapeCasts_S2000x32_S2000x32 : S2000x32.ShapeCasts S2000x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S2000x50_S50x32_S2000x32_1_0_0_1_n_n_wf : DotDims.WF S2000x50 S50x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x10_S2000x10_1_0_0_1_n_n_wf : DotDims.WF S2000x32 S32x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x50.size a ≤ S100000x50.size a
  hwx0_0 : ∀ i : grid0.Coords, EltTy.bits .f32 = 32 ∨ (Rect.block (s := S100000x50) S2000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x50.size a ≤ S100000x50.size a
  hwx0_1 : ∀ i : grid0.Coords, EltTy.bits .f32 = 32 ∨ (Rect.block (s := S100000x50) S2000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x32.size a ≤ S50x32.size a
  hwx0_2 : ∀ i : grid0.Coords, EltTy.bits .f32 = 32 ∨ (Rect.block (s := S50x32) S50x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x32.size a ≤ S50x32.size a
  hwx0_3 : ∀ i : grid0.Coords, EltTy.bits .f32 = 32 ∨ (Rect.block (s := S50x32) S50x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x10.size a ≤ S32x10.size a
  hwx1_2 : ∀ i : grid1.Coords, EltTy.bits .f32 = 32 ∨ (Rect.block (s := S32x10) S32x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x10.size a ≤ S32x10.size a
  hwx1_3 : ∀ i : grid1.Coords, EltTy.bits .f32 = 32 ∨ (Rect.block (s := S32x10) S32x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10.size a ≤ S10.size a
  hwx1_4 : ∀ i : grid1.Coords, EltTy.bits .f32 = 32 ∨ (Rect.block (s := S10) S10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x10.size a ≤ S100000x10.size a
  hwx1_5 : ∀ i : grid1.Coords, EltTy.bits .f32 = 32 ∨ (Rect.block (s := S100000x10) S2000x10.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S2000x50_S50x32_S2000x32_1_0_0_1_n_n : DotDims S2000x50 S50x32 S2000x32 where
  lhsContracting := [1]
  rhsContracting := [0]
  lhsNonContracting := [0]
  rhsNonContracting := [1]
  lhsBatch := []
  rhsBatch := []
  wf := dot_S2000x50_S50x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x10_S2000x10_1_0_0_1_n_n : DotDims S2000x32 S32x10 S2000x10 where
  lhsContracting := [1]
  rhsContracting := [0]
  lhsNonContracting := [0]
  rhsNonContracting := [1]
  lhsBatch := []
  rhsBatch := []
  wf := dot_S2000x32_S32x10_S2000x10_1_0_0_1_n_n_wf

abbrev win0_0 : Pipeline.Window sig grid0 :=
  Pipeline.Window.ofSpec (Memref.whole main_arg0) S2000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S50x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S50x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S32x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S32x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S2000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S2x50x32 : Shape := ⟨3, ![2, 50, 32]⟩
abbrev S32 : Shape := ⟨1, ![32]⟩
abbrev S2x32x10 : Shape := ⟨3, ![2, 32, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x50 : Shape := ⟨2, ![1600000, 50]⟩
abbrev S1x50x32 : Shape := ⟨3, ![1, 50, 32]⟩
abbrev S50x32 : Shape := ⟨2, ![50, 32]⟩
abbrev S100000x32 : Shape := ⟨2, ![100000, 32]⟩
abbrev S1x32 : Shape := ⟨2, ![1, 32]⟩
abbrev S1600000x32 : Shape := ⟨2, ![1600000, 32]⟩
abbrev S1x32x10 : Shape := ⟨3, ![1, 32, 10]⟩
abbrev S32x10 : Shape := ⟨2, ![32, 10]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S100000x50, .f32⟩
  | 1 => ⟨S2x1600000, .i32⟩
  | 2 => ⟨S2x50x32, .f32⟩
  | 3 => ⟨S32, .f32⟩
  | 4 => ⟨S2x32x10, .f32⟩
  | 5 => ⟨S10, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x50, .f32⟩
  | 57 => ⟨S1600000x50, .f32⟩
  | 58 => ⟨S1600000x50, .f32⟩
  | 59 => ⟨S_, .f32⟩
  | 60 => ⟨S100000x50, .f32⟩
  | 61 => ⟨S1600000x1, .i32⟩
  | 62 => ⟨S100000x50, .f32⟩
  | 63 => ⟨S1x50x32, .f32⟩
  | 64 => ⟨S50x32, .f32⟩
  | 65 => ⟨S100000x32, .f32⟩
  | 66 => ⟨S1x50x32, .f32⟩
  | 67 => ⟨S50x32, .f32⟩
  | 68 => ⟨S100000x32, .f32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x32, .f32⟩
  | 123 => ⟨S1600000x32, .f32⟩
  | 124 => ⟨S1600000x32, .f32⟩
  | 125 => ⟨S_, .f32⟩
  | 126 => ⟨S100000x32, .f32⟩
  | 127 => ⟨S1600000x1, .i32⟩
  | _ => ⟨S100000x50, .f32⟩

abbrev hbmTy0_1 (i : Nat) : BufTy := match i % 128 with
  | 0 => ⟨S100000x32, .f32⟩
  | 1 => ⟨S1x32x10, .f32⟩
  | 2 => ⟨S32x10, .f32⟩
  | 3 => ⟨S100000x10, .f32⟩
  | 4 => ⟨S1x32x10, .f32⟩
  | 5 => ⟨S32x10, .f32⟩
  | 6 => ⟨S100000x10, .f32⟩
  | 7 => ⟨S100000x10, .f32⟩
  | 8 => ⟨S1x10, .f32⟩
  | 9 => ⟨S100000x10, .f32⟩
  | 10 => ⟨S100000x10, .f32⟩
  | 11 => ⟨S_, .f32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x10, .f32⟩
  | 18 => ⟨S100000x10, .f32⟩
  | 19 => ⟨S100000x10, .f32⟩
  | 20 => ⟨S_, .f32⟩
  | 21 => ⟨S100000, .f32⟩
  | 22 => ⟨S100000x1, .f32⟩
  | 23 => ⟨S100000x1, .f32⟩
  | 24 => ⟨S100000x10, .f32⟩
  | 25 => ⟨S100000x10, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call3_cst : Ref sig .tc := ⟨.hbm, 139, rfl⟩
abbrev main_call3_v0 : Ref sig .tc := ⟨.hbm, 140, rfl⟩
abbrev main_call3_cst_0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_cst_1 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_v103 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  slices_S2x50x32_S1x50x32_0_0_0 : S2x50x32.Slices ![0, 0, 0] S1x50x32
  shapeCasts_S1x50x32_S50x32 : S1x50x32.ShapeCasts S50x32
  slices_S2x50x32_S1x50x32_1_0_0 : S2x50x32.Slices ![1, 0, 0] S1x50x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  slices_S2x32x10_S1x32x10_0_0_0 : S2x32x10.Slices ![0, 0, 0] S1x32x10
  shapeCasts_S1x32x10_S32x10 : S1x32x10.ShapeCasts S32x10
  slices_S2x32x10_S1x32x10_1_0_0 : S2x32x10.Slices ![1, 0, 0] S1x32x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S100000x50_S50x32_S100000x32_1_0_0_1_n_n_wf : DotDims.WF S100000x50 S50x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x10_S100000x10_1_0_0_1_n_n_wf : DotDims.WF S100000x32 S32x10 S100000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x50_S50x32_S100000x32_1_0_0_1_n_n : DotDims S100000x50 S50x32 S100000x32 where
  lhsContracting := [1]
  rhsContracting := [0]
  lhsNonContracting := [0]
  rhsNonContracting := [1]
  lhsBatch := []
  rhsBatch := []
  wf := dot_S100000x50_S50x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.KernelRun.lean ====
/-
  The idealized kernel's run with its result named.

  The program is six segments in a row: three stretches of host operations, the first kernel region, one more stretch of
  host operations, the second kernel region.  The contents of the TensorCore's buffers at each boundary are a fold
  through the segments from the launch memory; the last one, `W6`, is what every final state holds.  So every weakly
  fair execution terminates with the result buffer at `W6`'s value there and the six argument arrays as launched.
-/
import proofs.«110723_j71940702208089_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, the result buffer holding the last boundary's contents of it and the
    arguments unchanged: the launch over the six segments, the last thread state read against the final state. -/
theorem run : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v65 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibChebLayers.lean ====
/-
  The two dense layers of a second-order Chebyshev graph convolution, entry by entry, over the extended reals.

  With `x` the node features, `tx` their image under the rescaled graph Laplacian, `w0`, `w1` the two weight matrices
  and `b` the bias, one entry of the linear combine is
      c (p, q) = ∑ₖ x (p, k) · w0 (k, q) + ∑ₖ tx (p, k) · w1 (k, q) + b q.
  The first layer is `max (c, 0)`; the second is the log-softmax of each row of `c`:
      c (p, q) − μ p − log ∑ₖ exp (c (p, k) − μ p),   μ p the largest entry of row p.
  An entry depends on one row of `x` and `tx` only, so a block of rows of a layer is the layer of the block of rows.
  Below: the definitions, general in the extents, and how a vector unit spells the pieces (a matrix product into a
  zero accumulator after a change of float format, a bias row recast and spread over the rows).
-/
import Idealize.ShloMosaic.Lib.Pipeline.Value
import Idealize.ShloMosaic.Lib.ValueIdx
import Idealize.ShloMosaic.Lib.ValueLayout
import Idealize.ShloMosaic.PureOps.Ideal.Laws
import proofs.«110723_j71940702208089_1_alg».proof.Proof.LibPlainDot
import proofs.«110723_j71940702208089_1_alg».proof.Proof.LibColumns
import proofs.«110723_j71940702208089_1_alg».proof.Proof.LibRowMax

noncomputable section

open scoped BigOperators

namespace Cert.Cheb

open Idealize.ShloMosaic Idealize.ShloMosaic.ValueIdx

/-- One entry of the linear combine `x·w0 + tx·w1 + b`. -/
def combineAt {n K M : ℕ} (x tx : (⟨2, ![n, K]⟩ : Shape).Idx → EReal) (w0 w1 : (⟨2, ![K, M]⟩ : Shape).Idx → EReal)
    (b : (⟨1, ![M]⟩ : Shape).Idx → EReal) (p : Fin n) (q : Fin M) : EReal :=
  (∑ k : Fin K, x (ix2 p k) * w0 (ix2 k q)) + (∑ k : Fin K, tx (ix2 p k) * w1 (ix2 k q)) + b (ix1 q)

/-- An entry of the combine reads row `p` of `x` and of `tx`, column `q` of the weights and entry `q` of the bias, and
    nothing else: two combines whose operands agree there agree at the entry. -/
theorem combineAt_congr {n n' K M M' : ℕ} (x tx : (⟨2, ![n, K]⟩ : Shape).Idx → EReal) (x' tx' : (⟨2, ![n', K]⟩ : Shape).Idx → EReal)
    (w0 w1 : (⟨2, ![K, M]⟩ : Shape).Idx → EReal) (w0' w1' : (⟨2, ![K, M']⟩ : Shape).Idx → EReal)
    (b : (⟨1, ![M]⟩ : Shape).Idx → EReal) (b' : (⟨1, ![M']⟩ : Shape).Idx → EReal) (p : Fin n) (p' : Fin n') (q : Fin M) (q' : Fin M')
    (hx : ∀ k : Fin K, x (ix2 p k) = x' (ix2 p' k)) (htx : ∀ k : Fin K, tx (ix2 p k) = tx' (ix2 p' k))
    (hw0 : ∀ k : Fin K, w0 (ix2 k q) = w0' (ix2 k q')) (hw1 : ∀ k : Fin K, w1 (ix2 k q) = w1' (ix2 k q'))
    (hb : b (ix1 q) = b' (ix1 q')) :
    combineAt x tx w0 w1 b p q = combineAt x' tx' w0' w1' b' p' q' := by
  unfold combineAt
  have h1 : ∀ k : Fin K, x (ix2 p k) * w0 (ix2 k q) = x' (ix2 p' k) * w0' (ix2 k q') := fun k => by rw [hx k, hw0 k]
  have h2 : ∀ k : Fin K, tx (ix2 p k) * w1 (ix2 k q) = tx' (ix2 p' k) * w1' (ix2 k q') := fun k => by rw [htx k, hw1 k]
  rw [Finset.sum_congr rfl (fun k _ => h1 k), Finset.sum_congr rfl (fun k _ => h2 k), hb]

/-- The rectifier of one entry: the larger of it and the number the 32-bit zero word denotes. -/
def reluAt (v : EReal) : EReal := max v (Ideal.ofBits .f32 0x00000000#32)

/-- The largest entry of a row, folded from minus infinity (and compared with it once more, as both programs do). -/
def rowTop {M : ℕ} (z : Fin M → EReal) : EReal :=
  max (Ideal.ofBits .f32 0xFF800000#32) ((Finset.univ : Finset (Fin M)).fold max (Ideal.ofBits .f32 0xFF800000#32) z)

/-- One entry of the log-softmax of a row `z`. -/
def lsmAt {M : ℕ} (z : Fin M → EReal) (q : Fin M) : EReal :=
  (z q - rowTop z) - Ideal.log (∑ k : Fin M, Ideal.exp (z k - rowTop z))

/-- The first layer as one array: the rectified combine. -/
def reluLayer {n K M : ℕ} (x tx : (⟨2, ![n, K]⟩ : Shape).Idx → EReal) (w0 w1 : (⟨2, ![K, M]⟩ : Shape).Idx → EReal)
    (b : (⟨1, ![M]⟩ : Shape).Idx → EReal) : (⟨2, ![n, M]⟩ : Shape).Idx → EReal :=
  fun i => reluAt (combineAt x tx w0 w1 b (i 0) (i 1))

/-- The second layer as one array: the log-softmax of each row of the combine. -/
def lsmLayer {n K M : ℕ} (x tx : (⟨2, ![n, K]⟩ : Shape).Idx → EReal) (w0 w1 : (⟨2, ![K, M]⟩ : Shape).Idx → EReal)
    (b : (⟨1, ![M]⟩ : Shape).Idx → EReal) : (⟨2, ![n, M]⟩ : Shape).Idx → EReal :=
  fun i => lsmAt (fun k => combineAt x tx w0 w1 b (i 0) k) (i 1)

/-- A matrix product of two operands narrowed to a shorter float format, into the zero accumulator, at entry (p, q):
    on the extended reals the narrowing changes nothing, and the product is the plain sum. -/
theorem matmul_narrowed_apply {n K M : ℕ} {ψ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (a : FVec Ideal (⟨2, ![n, K]⟩ : Shape) .f32) (w : FVec Ideal (⟨2, ![K, M]⟩ : Shape) .f32) (hlt : ψ.bits < FTy.f32.bits)
    (p : Fin n) (q : Fin M) :
    matmul D none (truncf ψ a hlt) (truncf ψ w hlt) (constant (⟨2, ![n, M]⟩ : Shape) .f32 0x00000000#32) (ix2 p q)
      = ∑ k : Fin K, a (ix2 p k) * w (ix2 k q) :=
  Cert.PlainDot.matmul_zero_apply D hr hs l0 l1 r0 r1 none (truncf ψ a hlt) (truncf ψ w hlt) p q

/-- A bias vector recast as a one-row matrix and spread over `n` rows reads, at (p, q), its entry `q`. -/
theorem bias_row_apply {α : Type} {n M : ℕ} (b : (⟨1, ![M]⟩ : Shape).Idx → α)
    (h1 : (⟨1, ![M]⟩ : Shape).ShapeCasts ⟨2, ![1, M]⟩) (h2 : (⟨2, ![1, M]⟩ : Shape).Broadcasts ⟨2, ![n, M]⟩)
    (p : Fin n) (q : Fin M) :
    broadcastTo ⟨2, ![n, M]⟩ (shapeCast ⟨2, ![1, M]⟩ b h1) h2 (ix2 p q) = b (ix1 q) :=
  (broadcastTo_1b_ab_apply _ h2 p q).trans (shapeCast_a_1a_apply b h1 0 q)

end Cert.Cheb

end
-- ==== Proof.Payload.lean ====
/-
  What the two kernel bodies store, entry by entry, over the extended reals.

  The first body stores the rectified combine of its blocks; the second stores the log-softmax of each row of the
  combine of its blocks.  Both spell the combine as two matrix products of operands narrowed to a 16-bit format (the
  identity on extended reals) into zero accumulators, added, plus the bias recast as a row and spread over the rows.
-/
import proofs.«110723_j71940702208089_1_alg».proof.Proof.Gen.KernelIdeal.Skeleton
import proofs.«110723_j71940702208089_1_alg».proof.Proof.LibChebLayers

noncomputable section

open scoped BigOperators

namespace Cert.Cheb

open Cert.KernelIdeal Cert.KernelIdeal.Gen Idealize.ShloMosaic Idealize.ShloMosaic.ValueIdx

/-! ## The two products' dimension numbers: the output entry (p, q) at contraction position k reads (p, k) and (k, q) -/

theorem d0_l0 (i : S2000x32.Idx) (q : dot_S2000x50_S50x32_S2000x32_1_0_0_1_n_n.contr.Idx) :
    (dot_S2000x50_S50x32_S2000x32_1_0_0_1_n_n.lhsIdx i q 0).val = (i 0).val := by
  unfold DotDims.lhsIdx
  rw [dif_neg (show ¬(0 : Fin S2000x50.rank) ∈ dot_S2000x50_S50x32_S2000x32_1_0_0_1_n_n.lhsBatch by decide), dif_pos (show (0 : Fin S2000x50.rank) ∈ dot_S2000x50_S50x32_S2000x32_1_0_0_1_n_n.lhsNonContracting by decide)]
  rfl
theorem d0_l1 (i : S2000x32.Idx) (q : dot_S2000x50_S50x32_S2000x32_1_0_0_1_n_n.contr.Idx) :
    (dot_S2000x50_S50x32_S2000x32_1_0_0_1_n_n.lhsIdx i q 1).val = (q ⟨0, by decide⟩).val :=
  dot_S2000x50_S50x32_S2000x32_1_0_0_1_n_n.lhsIdx_val_of_single rfl i q
theorem d0_r0 (i : S2000x32.Idx) (q : dot_S2000x50_S50x32_S2000x32_1_0_0_1_n_n.contr.Idx) :
    (dot_S2000x50_S50x32_S2000x32_1_0_0_1_n_n.rhsIdx i q 0).val = (q ⟨0, by decide⟩).val :=
  dot_S2000x50_S50x32_S2000x32_1_0_0_1_n_n.rhsIdx_val_of_single rfl i q
theorem d0_r1 (i : S2000x32.Idx) (q : dot_S2000x50_S50x32_S2000x32_1_0_0_1_n_n.contr.Idx) :
    (dot_S2000x50_S50x32_S2000x32_1_0_0_1_n_n.rhsIdx i q 1).val = (i 1).val := by
  unfold DotDims.rhsIdx
  rw [dif_neg (show ¬(1 : Fin S50x32.rank) ∈ dot_S2000x50_S50x32_S2000x32_1_0_0_1_n_n.rhsBatch by decide), dif_pos (show (1 : Fin S50x32.rank) ∈ dot_S2000x50_S50x32_S2000x32_1_0_0_1_n_n.rhsNonContracting by decide)]
  rfl

theorem d1_l0 (i : S2000x10.Idx) (q : dot_S2000x32_S32x10_S2000x10_1_0_0_1_n_n.contr.Idx) :
    (dot_S2000x32_S32x10_S2000x10_1_0_0_1_n_n.lhsIdx i q 0).val = (i 0).val := by
  unfold DotDims.lhsIdx
  rw [dif_neg (show ¬(0 : Fin S2000x32.rank) ∈ dot_S2000x32_S32x10_S2000x10_1_0_0_1_n_n.lhsBatch by decide), dif_pos (show (0 : Fin S2000x32.rank) ∈ dot_S2000x32_S32x10_S2000x10_1_0_0_1_n_n.lhsNonContracting by decide)]
  rfl
theorem d1_l1 (i : S2000x10.Idx) (q : dot_S2000x32_S32x10_S2000x10_1_0_0_1_n_n.contr.Idx) :
    (dot_S2000x32_S32x10_S2000x10_1_0_0_1_n_n.lhsIdx i q 1).val = (q ⟨0, by decide⟩).val :=
  dot_S2000x32_S32x10_S2000x10_1_0_0_1_n_n.lhsIdx_val_of_single rfl i q
theorem d1_r0 (i : S2000x10.Idx) (q : dot_S2000x32_S32x10_S2000x10_1_0_0_1_n_n.contr.Idx) :
    (dot_S2000x32_S32x10_S2000x10_1_0_0_1_n_n.rhsIdx i q 0).val = (q ⟨0, by decide⟩).val :=
  dot_S2000x32_S32x10_S2000x10_1_0_0_1_n_n.rhsIdx_val_of_single rfl i q
theorem d1_r1 (i : S2000x10.Idx) (q : dot_S2000x32_S32x10_S2000x10_1_0_0_1_n_n.contr.Idx) :
    (dot_S2000x32_S32x10_S2000x10_1_0_0_1_n_n.rhsIdx i q 1).val = (i 1).val := by
  unfold DotDims.rhsIdx
  rw [dif_neg (show ¬(1 : Fin S32x10.rank) ∈ dot_S2000x32_S32x10_S2000x10_1_0_0_1_n_n.rhsBatch by decide), dif_pos (show (1 : Fin S32x10.rank) ∈ dot_S2000x32_S32x10_S2000x10_1_0_0_1_n_n.rhsNonContracting by decide)]
  rfl

/-! ## The first body: the rectified combine -/

/-- Entry (p, q) of what the first body stores is `max (combine (p, q), 0)` of its five loaded blocks. -/
theorem relu_payload_apply (v0 v2 : FVec Ideal S2000x50 .f32) (v5 v8 : FVec Ideal S50x32 .f32) (v14 : FVec Ideal S32 .f32)
    (p : Fin 2000) (q : Fin 32) :
    Gen.k0_pay1 (F := Ideal) v0 v2 v5 v8 v14 (ix2 p q) = reluAt (combineAt v0 v2 v5 v8 v14 p q) := by
  unfold Gen.k0_pay1 reluAt combineAt
  simp only [shapeCast_self]
  refine congrArg₂ max (congrArg₂ (· + ·) (congrArg₂ (· + ·) ?_ ?_) ?_) rfl
  · exact matmul_narrowed_apply _ rfl rfl d0_l0 d0_l1 d0_r0 d0_r1 v0 v5 _ p q
  · exact matmul_narrowed_apply _ rfl rfl d0_l0 d0_l1 d0_r0 d0_r1 v2 v8 _ p q
  · exact bias_row_apply v14 _ _ p q

/-! ## The second body: the log-softmax of each row of the combine -/

/-- The combine as the second body spells it, one vector of its five loaded blocks. -/
def combineVec (v0 v3 : FVec Ideal S2000x32 .f32) (v6 v9 : FVec Ideal S32x10 .f32) (v15 : FVec Ideal S10 .f32) :
    FVec Ideal S2000x10 .f32 :=
  addf (addf (matmul dot_S2000x32_S32x10_S2000x10_1_0_0_1_n_n none (truncf .bf16 v0 bitsLt_bf16_f32) (truncf .bf16 v6 bitsLt_bf16_f32)
      (constant S2000x10 .f32 0x00000000#32))
    (matmul dot_S2000x32_S32x10_S2000x10_1_0_0_1_n_n none (truncf .bf16 v3 bitsLt_bf16_f32) (truncf .bf16 v9 bitsLt_bf16_f32)
      (constant S2000x10 .f32 0x00000000#32)))
    (broadcastTo S2000x10 (shapeCast S1x10 v15 shapeCasts_S10_S1x10) broadcasts_S1x10_S2000x10)

theorem combineVec_apply (v0 v3 : FVec Ideal S2000x32 .f32) (v6 v9 : FVec Ideal S32x10 .f32) (v15 : FVec Ideal S10 .f32)
    (p : Fin 2000) (k : Fin 10) : combineVec v0 v3 v6 v9 v15 (ix2 p k) = combineAt v0 v3 v6 v9 v15 p k := by
  unfold combineVec combineAt
  refine congrArg₂ (· + ·) (congrArg₂ (· + ·) ?_ ?_) ?_
  · exact matmul_narrowed_apply _ rfl rfl d1_l0 d1_l1 d1_r0 d1_r1 v0 v6 _ p k
  · exact matmul_narrowed_apply _ rfl rfl d1_l0 d1_l1 d1_r0 d1_r1 v3 v9 _ p k
  · exact bias_row_apply v15 _ _ p k

/-- The log-softmax of the rows of a 2000 × 10 block, as the body spells it: a row maximum from minus infinity, the
    shifted entries, their exponentials' row sum, its logarithm, subtracted. -/
theorem lsm_vec_apply (z : FVec Ideal S2000x10 .f32) (p : Fin 2000) (q : Fin 10) :
    subf (subf z (broadcastTo S2000x10 (shapeCast S2000x1
        (maximumf (broadcast S2000 (Scalar.ofBits (F := Ideal) .f32 0xFF800000#32))
          (multiReduction .maximumf [1] S2000 z 0xFF800000#32 reduces_S2000x10_S2000 (.inl rfl) rfl)) shapeCasts_S2000_S2000x1)
        broadcasts_S2000x1_S2000x10))
      (broadcastTo S2000x10 (log (shapeCast S2000x1
        (multiReduction .add [1] S2000
          (exp (subf z (broadcastTo S2000x10 (shapeCast S2000x1
            (maximumf (broadcast S2000 (Scalar.ofBits (F := Ideal) .f32 0xFF800000#32))
              (multiReduction .maximumf [1] S2000 z 0xFF800000#32 reduces_S2000x10_S2000 (.inl rfl) rfl)) shapeCasts_S2000_S2000x1)
            broadcasts_S2000x1_S2000x10)))
          0x00000000#32 reduces_S2000x10_S2000 (.inl rfl) rfl) shapeCasts_S2000_S2000x1)) broadcasts_S2000x1_S2000x10) (ix2 p q)
      = lsmAt (fun k => z (ix2 p k)) q := by
  -- the row's top, spread back over the row
  have htop : ∀ c : Fin 10, (broadcastTo S2000x10 (shapeCast S2000x1
        (maximumf (broadcast S2000 (Scalar.ofBits (F := Ideal) .f32 0xFF800000#32))
          (multiReduction .maximumf [1] S2000 z 0xFF800000#32 reduces_S2000x10_S2000 (.inl rfl) rfl)) shapeCasts_S2000_S2000x1)
        broadcasts_S2000x1_S2000x10) (ix2 p c) = rowTop (fun k => z (ix2 p k)) := by
    intro c
    refine (Cert.LibColumns.broadcastTo_a1_ab_apply _ broadcasts_S2000x1_S2000x10 p c).trans ?_
    refine (Cert.LibColumns.shapeCast_a_a1_apply _ shapeCasts_S2000_S2000x1 p 0).trans ?_
    unfold rowTop
    refine congrArg₂ max rfl ?_
    exact Cert.LibRowMax.rowMax_apply z 0xFF800000#32 reduces_S2000x10_S2000 (.inl rfl) rfl p
  unfold lsmAt
  refine congrArg₂ (· - ·) (congrArg₂ (· - ·) rfl (htop q)) ?_
  refine (Cert.LibColumns.broadcastTo_a1_ab_apply _ broadcasts_S2000x1_S2000x10 p q).trans ?_
  refine congrArg Ideal.log ?_
  refine (Cert.LibColumns.shapeCast_a_a1_apply _ shapeCasts_S2000_S2000x1 p 0).trans ?_
  refine (Cert.LibColumns.rowSum_apply _ 0x00000000#32 reduces_S2000x10_S2000 (.inl rfl) rfl p).trans ?_
  refine Finset.sum_congr rfl fun k _ => congrArg Ideal.exp ?_
  exact congrArg₂ (· - ·) rfl (htop k)

/-- Entry (p, q) of what the second body stores is the log-softmax, at `q`, of row `p` of the combine of its blocks. -/
theorem lsm_payload_apply (v0 v3 : FVec Ideal S2000x32 .f32) (v6 v9 : FVec Ideal S32x10 .f32) (v15 : FVec Ideal S10 .f32)
    (p : Fin 2000) (q : Fin 10) :
    Gen.k1_pay1 (F := Ideal) v0 v3 v6 v9 v15 (ix2 p q) = lsmAt (fun k => combineAt v0 v3 v6 v9 v15 p k) q := by
  have h : Gen.k1_pay1 (F := Ideal) v0 v3 v6 v9 v15 (ix2 p q)
      = lsmAt (fun k => combineVec v0 v3 v6 v9 v15 (ix2 p k)) q := by
    unfold Gen.k1_pay1
    simp only [shapeCast_self]
    exact lsm_vec_apply (combineVec v0 v3 v6 v9 v15) p q
  rw [h]
  exact congrArg (fun z => lsmAt z q) (funext fun k => combineVec_apply v0 v3 v6 v9 v15 p k)

end Cert.Cheb

end
-- ==== Proof.Regions.lean ====
/-
  From blocks to arrays: each kernel region leaves in its output array the layer of the arrays it was entered with.

  A region's grid has fifty points; point `t` reads rows `2000·t … 2000·t + 1999` of the two row-blocked inputs, the
  whole weight matrices and the whole bias, and writes back rows `2000·t … 2000·t + 1999` of the output.  An entry of a
  layer depends on one row of the row-blocked inputs, so what point `t` writes back is block `t` of the layer of the
  whole arrays; the fifty blocks tile the output's 100000 rows, so the output array ends holding the layer.
-/
import proofs.«110723_j71940702208089_1_alg».proof.Proof.Gen.KernelIdeal.Frame
import proofs.«110723_j71940702208089_1_alg».proof.Proof.Payload

set_option maxRecDepth 16384

noncomputable section

namespace Cert.Cheb

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps over the grid: the two row-blocked inputs and the output move one block of rows per point,
    the weights and the bias stay whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt_N0 (t : Fin cfg0.N) : t.val < 50 := Nat.lt_of_lt_of_eq t.isLt N_0

/-- Row `p` of point `t`'s block is row `2000·t + p` of the array. -/
def row0 (t : Fin cfg0.N) (p : Fin 2000) : Fin 100000 := ⟨t.val * 2000 + p.val, by have := lt_N0 t; have := p.isLt; omega⟩

theorem emb0_0 (t : Fin cfg0.N) (p : Fin 2000) (k : Fin 50) :
    ((cfg0.win 0).blk t).view.emb (ix2 p k) = ix2 (row0 t p) k := by
  obtain ⟨e0, e1, -⟩ := idx_facts0 t
  funext a; apply Fin.ext
  match a with
  | ⟨0, _⟩ => show win0_0.index t (0 : Fin 2) * 2000 + 1 * p.val = t.val * 2000 + p.val; omega
  | ⟨1, _⟩ => show win0_0.index t (1 : Fin 2) * 50 + 1 * k.val = k.val; omega

theorem emb0_1 (t : Fin cfg0.N) (p : Fin 2000) (k : Fin 50) :
    ((cfg0.win 1).blk t).view.emb (ix2 p k) = ix2 (row0 t p) k := by
  obtain ⟨-, -, e0, e1, -⟩ := idx_facts0 t
  funext a; apply Fin.ext
  match a with
  | ⟨0, _⟩ => show win0_1.index t (0 : Fin 2) * 2000 + 1 * p.val = t.val * 2000 + p.val; omega
  | ⟨1, _⟩ => show win0_1.index t (1 : Fin 2) * 50 + 1 * k.val = k.val; omega

theorem emb0_2 (t : Fin cfg0.N) (k : Fin 50) (q : Fin 32) :
    ((cfg0.win 2).blk t).view.emb (ix2 k q) = ix2 k q := by
  obtain ⟨-, -, -, -, e0, e1, -⟩ := idx_facts0 t
  funext a; apply Fin.ext
  match a with
  | ⟨0, _⟩ => show win0_2.index t (0 : Fin 2) * 50 + 1 * k.val = k.val; omega
  | ⟨1, _⟩ => show win0_2.index t (1 : Fin 2) * 32 + 1 * q.val = q.val; omega

theorem emb0_3 (t : Fin cfg0.N) (k : Fin 50) (q : Fin 32) :
    ((cfg0.win 3).blk t).view.emb (ix2 k q) = ix2 k q := by
  obtain ⟨-, -, -, -, -, -, e0, e1, -⟩ := idx_facts0 t
  funext a; apply Fin.ext
  match a with
  | ⟨0, _⟩ => show win0_3.index t (0 : Fin 2) * 50 + 1 * k.val = k.val; omega
  | ⟨1, _⟩ => show win0_3.index t (1 : Fin 2) * 32 + 1 * q.val = q.val; omega

theorem emb0_4 (t : Fin cfg0.N) (q : Fin 32) :
    ((cfg0.win 4).blk t).view.emb (ix1 q) = ix1 q := by
  obtain ⟨-, -, -, -, -, -, -, -, e0, -⟩ := idx_facts0 t
  funext a; apply Fin.ext
  match a with
  | ⟨0, _⟩ => show win0_4.index t (0 : Fin 1) * 32 + 1 * q.val = q.val; omega

theorem emb0_5 (t : Fin cfg0.N) (p : Fin 2000) (q : Fin 32) :
    ((cfg0.win 5).blk t).view.emb (ix2 p q) = ix2 (row0 t p) q := by
  obtain ⟨-, -, -, -, -, -, -, -, -, e0, e1⟩ := idx_facts0 t
  funext a; apply Fin.ext
  match a with
  | ⟨0, _⟩ => show win0_5.index t (0 : Fin 2) * 2000 + 1 * p.val = t.val * 2000 + p.val; omega
  | ⟨1, _⟩ => show win0_5.index t (1 : Fin 2) * 32 + 1 * q.val = q.val; omega

/-- What point `t` writes back is block `t` of the layer of the arrays as the region finds them: the body's entry
    (p, q) is the layer's entry of its blocks, and row `p` of the blocks is row `2000·t + p` of the arrays. -/
theorem flushed0_eq (c : Dev nD) (t : Fin cfg0.N) :
    (dat0 V c).flushed 5 t = ((cfg0.win 5).blk t).view.read (Elt Ideal)
      (reluLayer (n := 100000) (K := 50) (M := 32) (V c main_arg0) (V c main_v42) (V c main_v44) (V c main_v46) (V c main_arg3)) := by
  show (cfg0.win 5).cut (grid0.coords t) ((dat0 V c).after 5 t) = _
  rw [after0_5]
  unfold out0_5
  rw [View.canon_unit_zero hz2]
  simp only [View.ld_unit_zero (S := S2000x50) hz2, View.ld_unit_zero (S := S50x32) hz2, View.ld_unit_zero (S := S32) hz1]
  funext j
  obtain ⟨p, q, rfl⟩ : ∃ (p : Fin 2000) (q : Fin 32), j = ix2 p q := ⟨j 0, j 1, eq_ix2 j⟩
  show Gen.k0_pay1 (F := Ideal) (iblk0 V c 0 t) (iblk0 V c 1 t) (iblk0 V c 2 t) (iblk0 V c 3 t) (iblk0 V c 4 t) (ix2 p q)
    = reluLayer (n := 100000) (K := 50) (M := 32) (V c main_arg0) (V c main_v42) (V c main_v44) (V c main_v46) (V c main_arg3) (((cfg0.win 5).blk t).view.emb (ix2 p q))
  rw [emb0_5 t p q]
  refine (relu_payload_apply (iblk0 V c 0 t) (iblk0 V c 1 t) (iblk0 V c 2 t) (iblk0 V c 3 t) (iblk0 V c 4 t) p q).trans ?_
  refine congrArg reluAt (combineAt_congr _ _ _ _ _ _ _ _ _ _ p (row0 t p) q q
    (fun k => ?_) (fun k => ?_) (fun k => ?_) (fun k => ?_) ?_)
  · exact congrArg (V c main_arg0) (emb0_0 t p k)
  · exact congrArg (V c main_v42) (emb0_1 t p k)
  · exact congrArg (V c main_v44) (emb0_2 t k q)
  · exact congrArg (V c main_v46) (emb0_3 t k q)
  · exact congrArg (V c main_arg3) (emb0_4 t q)

theorem mem_blk0 (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v47).slice (win0_5.rect t)).set ↔ _
  rw [View.set_slice_whole, Rect.mem_set_unit]
  exact Iff.rfl

/-- Every row of the output lies in the block of the point `row / 2000`. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 50 := N_0
  let t : Fin cfg0.N := ⟨(i 0).val / 2000, by rw [hN]; omega⟩
  obtain ⟨-, -, -, -, -, -, -, -, -, e0, e1⟩ := idx_facts0 t
  have ht : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 32 ≤ (i 1).val ∧ (i 1).val < win0_5.index t (1 : Fin 2) * 32 + 32; omega

/-- The output array after the region is the layer of the arrays as the region finds them. -/
theorem final0 (c : Dev nD) : (dat0 V c).arrAt 5 cfg0.N
    = reluLayer (n := 100000) (K := 50) (M := 32) (V c main_arg0) (V c main_v42) (V c main_v44) (V c main_v46) (V c main_arg3) :=
  (dat0 V c).arrAt_eq_of_cover 5 _ (fun t _ => flushed0_eq V c t) (cover0)

/-! ## Region 1 -/

/-- The printed index maps over the grid: the two row-blocked inputs and the output move one block of rows per point,
    the weights and the bias stay whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem lt_N1 (t : Fin cfg1.N) : t.val < 50 := Nat.lt_of_lt_of_eq t.isLt N_1

/-- Row `p` of point `t`'s block is row `2000·t + p` of the array. -/
def row1 (t : Fin cfg1.N) (p : Fin 2000) : Fin 100000 := ⟨t.val * 2000 + p.val, by have := lt_N1 t; have := p.isLt; omega⟩

theorem emb1_0 (t : Fin cfg1.N) (p : Fin 2000) (k : Fin 32) :
    ((cfg1.win 0).blk t).view.emb (ix2 p k) = ix2 (row1 t p) k := by
  obtain ⟨e0, e1, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 32 + 1 * k.val = k.val; omega

theorem emb1_1 (t : Fin cfg1.N) (p : Fin 2000) (k : Fin 32) :
    ((cfg1.win 1).blk t).view.emb (ix2 p k) = ix2 (row1 t p) k := by
  obtain ⟨-, -, e0, e1, -⟩ := idx_facts1 t
  funext a; apply Fin.ext
  match a with
  | ⟨0, _⟩ => show win1_1.index t (0 : Fin 2) * 2000 + 1 * p.val = t.val * 2000 + p.val; omega
  | ⟨1, _⟩ => show win1_1.index t (1 : Fin 2) * 32 + 1 * k.val = k.val; omega

theorem emb1_2 (t : Fin cfg1.N) (k : Fin 32) (q : Fin 10) :
    ((cfg1.win 2).blk t).view.emb (ix2 k q) = ix2 k q := by
  obtain ⟨-, -, -, -, e0, e1, -⟩ := idx_facts1 t
  funext a; apply Fin.ext
  match a with
  | ⟨0, _⟩ => show win1_2.index t (0 : Fin 2) * 32 + 1 * k.val = k.val; omega
  | ⟨1, _⟩ => show win1_2.index t (1 : Fin 2) * 10 + 1 * q.val = q.val; omega

theorem emb1_3 (t : Fin cfg1.N) (k : Fin 32) (q : Fin 10) :
    ((cfg1.win 3).blk t).view.emb (ix2 k q) = ix2 k q := by
  obtain ⟨-, -, -, -, -, -, e0, e1, -⟩ := idx_facts1 t
  funext a; apply Fin.ext
  match a with
  | ⟨0, _⟩ => show win1_3.index t (0 : Fin 2) * 32 + 1 * k.val = k.val; omega
  | ⟨1, _⟩ => show win1_3.index t (1 : Fin 2) * 10 + 1 * q.val = q.val; omega

theorem emb1_4 (t : Fin cfg1.N) (q : Fin 10) :
    ((cfg1.win 4).blk t).view.emb (ix1 q) = ix1 q := by
  obtain ⟨-, -, -, -, -, -, -, -, e0, -⟩ := idx_facts1 t
  funext a; apply Fin.ext
  match a with
  | ⟨0, _⟩ => show win1_4.index t (0 : Fin 1) * 10 + 1 * q.val = q.val; omega

theorem emb1_5 (t : Fin cfg1.N) (p : Fin 2000) (q : Fin 10) :
    ((cfg1.win 5).blk t).view.emb (ix2 p q) = ix2 (row1 t p) q := by
  obtain ⟨-, -, -, -, -, -, -, -, -, e0, e1⟩ := idx_facts1 t
  funext a; apply Fin.ext
  match a with
  | ⟨0, _⟩ => show win1_5.index t (0 : Fin 2) * 2000 + 1 * p.val = t.val * 2000 + p.val; omega
  | ⟨1, _⟩ => show win1_5.index t (1 : Fin 2) * 10 + 1 * q.val = q.val; omega

/-- What point `t` writes back is block `t` of the layer of the arrays as the region finds them: the body's entry
    (p, q) is the layer's entry of its blocks, and row `p` of the blocks is row `2000·t + p` of the arrays. -/
theorem flushed1_eq (c : Dev nD) (t : Fin cfg1.N) :
    (dat1 V c).flushed 5 t = ((cfg1.win 5).blk t).view.read (Elt Ideal)
      (lsmLayer (n := 100000) (K := 32) (M := 10) (V c main_v47) (V c main_v60) (V c main_v62) (V c main_v64) (V c main_arg5)) := by
  show (cfg1.win 5).cut (grid1.coords t) ((dat1 V c).after 5 t) = _
  rw [after1_5]
  unfold out1_5
  rw [View.canon_unit_zero hz2]
  simp only [View.ld_unit_zero (S := S2000x32) hz2, View.ld_unit_zero (S := S32x10) hz2, View.ld_unit_zero (S := S10) hz1]
  funext j
  obtain ⟨p, q, rfl⟩ : ∃ (p : Fin 2000) (q : Fin 10), j = ix2 p q := ⟨j 0, j 1, eq_ix2 j⟩
  show Gen.k1_pay1 (F := Ideal) (iblk1 V c 0 t) (iblk1 V c 1 t) (iblk1 V c 2 t) (iblk1 V c 3 t) (iblk1 V c 4 t) (ix2 p q)
    = lsmLayer (n := 100000) (K := 32) (M := 10) (V c main_v47) (V c main_v60) (V c main_v62) (V c main_v64) (V c main_arg5) (((cfg1.win 5).blk t).view.emb (ix2 p q))
  rw [emb1_5 t p q]
  refine (lsm_payload_apply (iblk1 V c 0 t) (iblk1 V c 1 t) (iblk1 V c 2 t) (iblk1 V c 3 t) (iblk1 V c 4 t) p q).trans ?_
  refine congrArg (fun z => lsmAt z q) (funext fun j => combineAt_congr _ _ _ _ _ _ _ _ _ _ p (row1 t p) j j
    (fun k => ?_) (fun k => ?_) (fun k => ?_) (fun k => ?_) ?_)
  · exact congrArg (V c main_v47) (emb1_0 t p k)
  · exact congrArg (V c main_v60) (emb1_1 t p k)
  · exact congrArg (V c main_v62) (emb1_2 t k j)
  · exact congrArg (V c main_v64) (emb1_3 t k j)
  · exact congrArg (V c main_arg5) (emb1_4 t j)

theorem mem_blk1 (t : Fin cfg1.N) (i : S100000x10.Idx) :
    i ∈ ((cfg1.win 5).blk t).view.set ↔ ∀ a : Fin 2, win1_5.index t a * S2000x10.size a ≤ (i a).val ∧ (i a).val < win1_5.index t a * S2000x10.size a + S2000x10.size a := by
  show i ∈ ((View.whole main_v65).slice (win1_5.rect t)).set ↔ _
  rw [View.set_slice_whole, Rect.mem_set_unit]
  exact Iff.rfl

/-- Every row of the output lies in the block of the point `row / 2000`. -/
theorem cover1 (i : S100000x10.Idx) : ∃ t : Fin cfg1.N, (cfg1.win 5).flush t = true ∧ i ∈ ((cfg1.win 5).blk t).view.set := by
  have hi0 : (i 0).val < 100000 := (i 0).isLt
  have hi1 : (i 1).val < 10 := (i 1).isLt
  have hN : cfg1.N = 50 := N_1
  let t : Fin cfg1.N := ⟨(i 0).val / 2000, by rw [hN]; omega⟩
  obtain ⟨-, -, -, -, -, -, -, -, -, e0, e1⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 10 ≤ (i 1).val ∧ (i 1).val < win1_5.index t (1 : Fin 2) * 10 + 10; omega

/-- The output array after the region is the layer of the arrays as the region finds them. -/
theorem final1 (c : Dev nD) : (dat1 V c).arrAt 5 cfg1.N
    = lsmLayer (n := 100000) (K := 32) (M := 10) (V c main_v47) (V c main_v60) (V c main_v62) (V c main_v64) (V c main_arg5) :=
  (dat1 V c).arrAt_eq_of_cover 5 _ (fun t _ => flushed1_eq V c t) (cover1)

end Cert.Cheb

end
-- ==== Proof.HostChain.lean ====
/-
  The graph side of the computation, which both programs leave to the host, as named functions; and the kernel
  program's host stretches read as those functions.

  From the edge list `ei` (row 0 the source node of each edge, row 1 its destination):
    * `degree src` counts, per node, the edges leaving it (a scatter-add of ones);
    * `nodeScale src` is `deg^(-1/2)` where the degree is positive and `0` elsewhere;
    * `edgeWeight d src dst` is `-(d[src] · d[dst])` per edge, the entries of the rescaled Laplacian;
    * `propagate feat w src dst` gathers the source rows of `feat`, scales each by its edge's weight and scatter-adds
      them into the destination rows: the Laplacian applied to `feat`.
  A negative index is read from the end, as `jnp` indexing does (`wrapIdx`).  Nothing below opens a gather or a scatter.
-/
import proofs.«110723_j71940702208089_1_alg».proof.Proof.Gen.KernelIdeal.Launch
import Idealize.ShloMosaic.Lib.StableHlo.Run
import Idealize.ShloMosaic.PureOps.Ideal

set_option maxRecDepth 16384

noncomputable section

namespace Cert.Cheb

open Cert.KernelIdeal Cert.KernelIdeal.Gen Idealize.ShloMosaic Idealize.ShloMosaic.TcCoe Idealize.SL.Sem Idealize.ShloMosaic.StableHlo

/-- An array of shape `S` and element type `e` over the extended reals. -/
abbrev Arr (S : Shape) (e : EltTy) : Type := (⟨S, e⟩ : BufTy).Contents (Elt Ideal)

/-- Row 0 of the edge list: each edge's source node. -/
def edgeRow0 (ei : Arr S2x1600000 .i32) : Arr S1600000 .i32 :=
  shapeCast S1600000 (extractStridedSlice S1x1600000 ![0, 0] ei slices_S2x1600000_S1x1600000_0_0) shapeCasts_S1x1600000_S1600000
/-- Row 1 of the edge list: each edge's destination node. -/
def edgeRow1 (ei : Arr S2x1600000 .i32) : Arr S1600000 .i32 :=
  shapeCast S1600000 (extractStridedSlice S1x1600000 ![1, 0] ei slices_S2x1600000_S1x1600000_1_0) shapeCasts_S1x1600000_S1600000

/-- A per-edge vector as the one-column matrix a gather or a scatter takes. -/
def col {α : Type} (v : S1600000.Idx → α) : S1600000x1.Idx → α := broadcastInDim S1600000x1 ![0] bcast_S1600000_S1600000x1_0 v

/-- A negative node index counts from the end: add the number of nodes to it. -/
def wrapIdx (v : Arr S1600000 .i32) : Arr S1600000 .i32 :=
  select (cmpi .slt v (broadcastInDim S1600000 ![] bcast_S_S1600000 (constantI S_ 32 0#32)))
    (addi v (broadcastInDim S1600000 ![] bcast_S_S1600000 (constantI S_ 32 100000#32))) v

/-- The number of edges leaving each node. -/
def degree (src : Arr S1600000 .i32) : Arr S100000 .f32 :=
  Host.scatterAdd (F := Ideal) scatter_S100000_S1600000x1_S1600000_n_0_0_1
    (broadcastInDim S100000 ![] bcast_S_S100000 (constant (F := Ideal) S_ .f32 0x00000000#32)) (col src)
    (broadcastInDim S1600000 ![] bcast_S_S1600000 (constant (F := Ideal) S_ .f32 0x3F800000#32))

/-- Where a node's degree is positive. -/
def degPos (src : Arr S1600000 .i32) : Arr S100000 .i1 :=
  cmpf (F := Ideal) .ogt (degree src) (broadcastInDim S100000 ![] bcast_S_S100000 (constant (F := Ideal) S_ .f32 0x00000000#32))
/-- The inverse square root of a node's degree, the degree taken as at least one. -/
def degRsqrt (src : Arr S1600000 .i32) : Arr S100000 .f32 :=
  Host.rsqrt (F := Ideal) (maximumf (F := Ideal) (degree src) (broadcastInDim S100000 ![] bcast_S_S100000 (constant (F := Ideal) S_ .f32 0x3F800000#32)))
/-- `deg^(-1/2)` on the nodes of positive degree, `0` on the others. -/
def pickScale (pos : Arr S100000 .i1) (rs : Arr S100000 .f32) (z : Arr S_ .f32) : Arr S100000 .f32 :=
  select pos rs (broadcastInDim S100000 ![] bcast_S_S100000 (id z))
def nodeScale (src : Arr S1600000 .i32) : Arr S100000 .f32 :=
  pickScale (degPos src) (degRsqrt src) (constant (F := Ideal) S_ .f32 0x00000000#32)

/-- The rescaled Laplacian's entry of each edge: minus the product of its two ends' scales. -/
def edgeWeight (d : Arr S100000 .f32) (src dst : Arr S1600000 .i32) : Arr S1600000 .f32 :=
  mulf (F := Ideal) (φ := .f32) (Host.negf (F := Ideal) (φ := .f32) (Host.gather gather_S100000_S1600000x1_S1600000_n_0_n_n_0_1_1 d (col (wrapIdx src))))
    (Host.gather gather_S100000_S1600000x1_S1600000_n_0_n_n_0_1_1 d (col (wrapIdx dst)))

/-- The Laplacian applied to 50 feature columns. -/
def propagate50 (feat : Arr S100000x50 .f32) (w : Arr S1600000 .f32) (src dst : Arr S1600000 .i32) : Arr S100000x50 .f32 :=
  Host.scatterAdd (F := Ideal) scatter_S100000x50_S1600000x1_S1600000x50_1_0_0_1
    (broadcastInDim S100000x50 ![] bcast_S_S100000x50 (constant (F := Ideal) S_ .f32 0x00000000#32)) (col dst)
    (mulf (F := Ideal) (φ := .f32) (broadcastInDim S1600000x50 ![0, 1] bcast_S1600000x1_S1600000x50_0_1 (col w))
      (Host.gather gather_S100000x50_S1600000x1_S1600000x50_1_0_n_n_0_1_150 feat (col (wrapIdx src))))
/-- The Laplacian applied to 32 feature columns. -/
def propagate32 (feat : Arr S100000x32 .f32) (w : Arr S1600000 .f32) (src dst : Arr S1600000 .i32) : Arr S100000x32 .f32 :=
  Host.scatterAdd (F := Ideal) scatter_S100000x32_S1600000x1_S1600000x32_1_0_0_1
    (broadcastInDim S100000x32 ![] bcast_S_S100000x32 (constant (F := Ideal) S_ .f32 0x00000000#32)) (col dst)
    (mulf (F := Ideal) (φ := .f32) (broadcastInDim S1600000x32 ![0, 1] bcast_S1600000x1_S1600000x32_0_1 (col w))
      (Host.gather gather_S100000x32_S1600000x1_S1600000x32_1_0_n_n_0_1_132 feat (col (wrapIdx src))))

/-- The two 50 × 32 weight matrices of the first layer. -/
def weightA0 (W : Arr S2x50x32 .f32) : Arr S50x32 .f32 :=
  shapeCast S50x32 (extractStridedSlice S1x50x32 ![0, 0, 0] W slices_S2x50x32_S1x50x32_0_0_0) shapeCasts_S1x50x32_S50x32
def weightA1 (W : Arr S2x50x32 .f32) : Arr S50x32 .f32 :=
  shapeCast S50x32 (extractStridedSlice S1x50x32 ![1, 0, 0] W slices_S2x50x32_S1x50x32_1_0_0) shapeCasts_S1x50x32_S50x32
/-- The two 32 × 10 weight matrices of the second layer. -/
def weightB0 (W : Arr S2x32x10 .f32) : Arr S32x10 .f32 :=
  shapeCast S32x10 (extractStridedSlice S1x32x10 ![0, 0, 0] W slices_S2x32x10_S1x32x10_0_0_0) shapeCasts_S1x32x10_S32x10
def weightB1 (W : Arr S2x32x10 .f32) : Arr S32x10 .f32 :=
  shapeCast S32x10 (extractStridedSlice S1x32x10 ![1, 0, 0] W slices_S2x32x10_S1x32x10_1_0_0) shapeCasts_S1x32x10_S32x10

/-! ## The kernel program's host operations, stretch by stretch, from any buffer contents `W` -/

section Stretches
variable (W : Valuation τ sig (Elt Ideal))

/-! ### The first stretch: the edge rows and the degrees -/
theorem s0_src : StableHlo.after (hostOps0 (F := Ideal)) W (Proc.devRef .tc main_v1) = edgeRow0 (W (Proc.devRef .tc main_arg1)) := by
  dsimp only [hostOps0]; after_results_simp <;> rfl
theorem s0_dst : StableHlo.after (hostOps0 (F := Ideal)) W (Proc.devRef .tc main_v3) = edgeRow1 (W (Proc.devRef .tc main_arg1)) := by
  dsimp only [hostOps0]; after_results_simp <;> rfl
theorem s0_pos : StableHlo.after (hostOps0 (F := Ideal)) W (Proc.devRef .tc main_v9) = degPos (edgeRow0 (W (Proc.devRef .tc main_arg1))) := by
  dsimp only [hostOps0]; after_results_simp <;> rfl
theorem s0_rs : StableHlo.after (hostOps0 (F := Ideal)) W (Proc.devRef .tc main_v12) = degRsqrt (edgeRow0 (W (Proc.devRef .tc main_arg1))) := by
  dsimp only [hostOps0]; after_results_simp <;> rfl
theorem s0_zero : StableHlo.after (hostOps0 (F := Ideal)) W (Proc.devRef .tc main_cst_3) = constant (F := Ideal) S_ .f32 0x00000000#32 := by
  dsimp only [hostOps0]; after_results_simp <;> rfl
theorem s0_arg0 : StableHlo.after (hostOps0 (F := Ideal)) W (Proc.devRef .tc main_arg0) = W (Proc.devRef .tc main_arg0) := by
  dsimp only [hostOps0]; after_results_simp <;> rfl
theorem s0_arg2 : StableHlo.after (hostOps0 (F := Ideal)) W (Proc.devRef .tc main_arg2) = W (Proc.devRef .tc main_arg2) := by
  dsimp only [hostOps0]; after_results_simp <;> rfl
theorem s0_arg3 : StableHlo.after (hostOps0 (F := Ideal)) W (Proc.devRef .tc main_arg3) = W (Proc.devRef .tc main_arg3) := by
  dsimp only [hostOps0]; after_results_simp <;> rfl
theorem s0_arg4 : StableHlo.after (hostOps0 (F := Ideal)) W (Proc.devRef .tc main_arg4) = W (Proc.devRef .tc main_arg4) := by
  dsimp only [hostOps0]; after_results_simp <;> rfl
theorem s0_arg5 : StableHlo.after (hostOps0 (F := Ideal)) W (Proc.devRef .tc main_arg5) = W (Proc.devRef .tc main_arg5) := by
  dsimp only [hostOps0]; after_results_simp <;> rfl

/-! ### The second stretch: the scale of each node -/
theorem s1_scale : StableHlo.after (hostOps0_1 (F := Ideal)) W (Proc.devRef .tc main_v13) = pickScale (W (Proc.devRef .tc main_v9)) (W (Proc.devRef .tc main_v12)) (W (Proc.devRef .tc main_cst_3)) := by
  dsimp only [hostOps0_1]; after_results_simp <;> rfl
theorem s1_v1 : StableHlo.after (hostOps0_1 (F := Ideal)) W (Proc.devRef .tc main_v1) = W (Proc.devRef .tc main_v1) := by
  dsimp only [hostOps0_1]; after_results_simp <;> rfl
theorem s1_v3 : StableHlo.after (hostOps0_1 (F := Ideal)) W (Proc.devRef .tc main_v3) = W (Proc.devRef .tc main_v3) := by
  dsimp only [hostOps0_1]; after_results_simp <;> rfl
theorem s1_arg0 : StableHlo.after (hostOps0_1 (F := Ideal)) W (Proc.devRef .tc main_arg0) = W (Proc.devRef .tc main_arg0) := by
  dsimp only [hostOps0_1]; after_results_simp <;> rfl
theorem s1_arg2 : StableHlo.after (hostOps0_1 (F := Ideal)) W (Proc.devRef .tc main_arg2) = W (Proc.devRef .tc main_arg2) := by
  dsimp only [hostOps0_1]; after_results_simp <;> rfl
theorem s1_arg3 : StableHlo.after (hostOps0_1 (F := Ideal)) W (Proc.devRef .tc main_arg3) = W (Proc.devRef .tc main_arg3) := by
  dsimp only [hostOps0_1]; after_results_simp <;> rfl
theorem s1_arg4 : StableHlo.after (hostOps0_1 (F := Ideal)) W (Proc.devRef .tc main_arg4) = W (Proc.devRef .tc main_arg4) := by
  dsimp only [hostOps0_1]; after_results_simp <;> rfl
theorem s1_arg5 : StableHlo.after (hostOps0_1 (F := Ideal)) W (Proc.devRef .tc main_arg5) = W (Proc.devRef .tc main_arg5) := by
  dsimp only [hostOps0_1]; after_results_simp <;> rfl

/-! ### The third stretch: the edge weights, the Laplacian applied to the features, the first layer's weights -/
theorem s2_weight : StableHlo.after (hostOps0_2 (F := Ideal)) W (Proc.devRef .tc main_v29) = edgeWeight (W (Proc.devRef .tc main_v13)) (W (Proc.devRef .tc main_v1)) (W (Proc.devRef .tc main_v3)) := by
  dsimp only [hostOps0_2]; after_results_simp <;> rfl
theorem s2_tx : StableHlo.after (hostOps0_2 (F := Ideal)) W (Proc.devRef .tc main_v42) = propagate50 (W (Proc.devRef .tc main_arg0)) (edgeWeight (W (Proc.devRef .tc main_v13)) (W (Proc.devRef .tc main_v1)) (W (Proc.devRef .tc main_v3))) (W (Proc.devRef .tc main_v1)) (W (Proc.devRef .tc main_v3)) := by
  dsimp only [hostOps0_2]; after_results_simp <;> rfl
theorem s2_w0 : StableHlo.after (hostOps0_2 (F := Ideal)) W (Proc.devRef .tc main_v44) = weightA0 (W (Proc.devRef .tc main_arg2)) := by
  dsimp only [hostOps0_2]; after_results_simp <;> rfl
theorem s2_w1 : StableHlo.after (hostOps0_2 (F := Ideal)) W (Proc.devRef .tc main_v46) = weightA1 (W (Proc.devRef .tc main_arg2)) := by
  dsimp only [hostOps0_2]; after_results_simp <;> rfl
theorem s2_v1 : StableHlo.after (hostOps0_2 (F := Ideal)) W (Proc.devRef .tc main_v1) = W (Proc.devRef .tc main_v1) := by
  dsimp only [hostOps0_2]; after_results_simp <;> rfl
theorem s2_v3 : StableHlo.after (hostOps0_2 (F := Ideal)) W (Proc.devRef .tc main_v3) = W (Proc.devRef .tc main_v3) := by
  dsimp only [hostOps0_2]; after_results_simp <;> rfl
theorem s2_arg0 : StableHlo.after (hostOps0_2 (F := Ideal)) W (Proc.devRef .tc main_arg0) = W (Proc.devRef .tc main_arg0) := by
  dsimp only [hostOps0_2]; after_results_simp <;> rfl
theorem s2_arg3 : StableHlo.after (hostOps0_2 (F := Ideal)) W (Proc.devRef .tc main_arg3) = W (Proc.devRef .tc main_arg3) := by
  dsimp only [hostOps0_2]; after_results_simp <;> rfl
theorem s2_arg4 : StableHlo.after (hostOps0_2 (F := Ideal)) W (Proc.devRef .tc main_arg4) = W (Proc.devRef .tc main_arg4) := by
  dsimp only [hostOps0_2]; after_results_simp <;> rfl
theorem s2_arg5 : StableHlo.after (hostOps0_2 (F := Ideal)) W (Proc.devRef .tc main_arg5) = W (Proc.devRef .tc main_arg5) := by
  dsimp only [hostOps0_2]; after_results_simp <;> rfl

end Stretches

/-! ## The three stretches before the first region, composed -/

section Before
variable (W : Valuation τ sig (Elt Ideal))

/-- The buffer contents after the three stretches of host operations before the first region. -/
abbrev before (W : Valuation τ sig (Elt Ideal)) : Valuation τ sig (Elt Ideal) :=
  StableHlo.after (hostOps0_2 (F := Ideal)) (StableHlo.after (hostOps0_1 (F := Ideal)) (StableHlo.after (hostOps0 (F := Ideal)) W))

theorem before_src : before W (Proc.devRef .tc main_v1) = edgeRow0 (W (Proc.devRef .tc main_arg1)) :=
  (s2_v1 _).trans ((s1_v1 _).trans (s0_src W))
theorem before_dst : before W (Proc.devRef .tc main_v3) = edgeRow1 (W (Proc.devRef .tc main_arg1)) :=
  (s2_v3 _).trans ((s1_v3 _).trans (s0_dst W))
theorem mid_scale : StableHlo.after (hostOps0_1 (F := Ideal)) (StableHlo.after (hostOps0 (F := Ideal)) W) (Proc.devRef .tc main_v13)
    = nodeScale (edgeRow0 (W (Proc.devRef .tc main_arg1))) := by
  refine (s1_scale _).trans ?_
  rw [s0_pos, s0_rs, s0_zero]
  all_goals rfl
theorem before_weight : before W (Proc.devRef .tc main_v29)
    = edgeWeight (nodeScale (edgeRow0 (W (Proc.devRef .tc main_arg1)))) (edgeRow0 (W (Proc.devRef .tc main_arg1))) (edgeRow1 (W (Proc.devRef .tc main_arg1))) := by
  refine (s2_weight _).trans ?_
  rw [mid_scale, s1_v1, s1_v3, s0_src, s0_dst]
theorem before_tx : before W (Proc.devRef .tc main_v42)
    = propagate50 (W (Proc.devRef .tc main_arg0))
        (edgeWeight (nodeScale (edgeRow0 (W (Proc.devRef .tc main_arg1)))) (edgeRow0 (W (Proc.devRef .tc main_arg1))) (edgeRow1 (W (Proc.devRef .tc main_arg1))))
        (edgeRow0 (W (Proc.devRef .tc main_arg1))) (edgeRow1 (W (Proc.devRef .tc main_arg1))) := by
  refine (s2_tx _).trans ?_
  rw [mid_scale, s1_v1, s1_v3, s0_src, s0_dst, s1_arg0, s0_arg0]
theorem before_w0 : before W (Proc.devRef .tc main_v44) = weightA0 (W (Proc.devRef .tc main_arg2)) := by
  refine (s2_w0 _).trans ?_
  rw [s1_arg2, s0_arg2]
theorem before_w1 : before W (Proc.devRef .tc main_v46) = weightA1 (W (Proc.devRef .tc main_arg2)) := by
  refine (s2_w1 _).trans ?_
  rw [s1_arg2, s0_arg2]
theorem before_arg0 : before W (Proc.devRef .tc main_arg0) = W (Proc.devRef .tc main_arg0) := (s2_arg0 _).trans ((s1_arg0 _).trans (s0_arg0 W))
theorem before_arg3 : before W (Proc.devRef .tc main_arg3) = W (Proc.devRef .tc main_arg3) := (s2_arg3 _).trans ((s1_arg3 _).trans (s0_arg3 W))
theorem before_arg4 : before W (Proc.devRef .tc main_arg4) = W (Proc.devRef .tc main_arg4) := (s2_arg4 _).trans ((s1_arg4 _).trans (s0_arg4 W))
theorem before_arg5 : before W (Proc.devRef .tc main_arg5) = W (Proc.devRef .tc main_arg5) := (s2_arg5 _).trans ((s1_arg5 _).trans (s0_arg5 W))

end Before

/-! ## The host operations between the two regions, from any buffer contents `W` -/

section Between
variable (W : Valuation τ sig (Elt Ideal))

theorem between_tx : StableHlo.after (hostOps1 (F := Ideal)) W (Proc.devRef .tc main_v60)
    = propagate32 (W (Proc.devRef .tc main_v47)) (W (Proc.devRef .tc main_v29)) (W (Proc.devRef .tc main_v1)) (W (Proc.devRef .tc main_v3)) := by
  dsimp only [hostOps1]; after_results_simp <;> rfl
theorem between_w0 : StableHlo.after (hostOps1 (F := Ideal)) W (Proc.devRef .tc main_v62) = weightB0 (W (Proc.devRef .tc main_arg4)) := by
  dsimp only [hostOps1]; after_results_simp <;> rfl
theorem between_w1 : StableHlo.after (hostOps1 (F := Ideal)) W (Proc.devRef .tc main_v64) = weightB1 (W (Proc.devRef .tc main_arg4)) := by
  dsimp only [hostOps1]; after_results_simp <;> rfl
theorem between_h : StableHlo.after (hostOps1 (F := Ideal)) W (Proc.devRef .tc main_v47) = W (Proc.devRef .tc main_v47) := by
  dsimp only [hostOps1]; after_results_simp <;> rfl
theorem between_arg5 : StableHlo.after (hostOps1 (F := Ideal)) W (Proc.devRef .tc main_arg5) = W (Proc.devRef .tc main_arg5) := by
  dsimp only [hostOps1]; after_results_simp <;> rfl

end Between

end Cert.Cheb

end
-- ==== Proof.Model.lean ====
/-
  The network as one function of its six arguments.

  `hidden` is the first layer: the rectified combine of the node features and their image under the rescaled
  Laplacian.  `output` is the second: the row-wise log-softmax of the combine of the hidden features and their image
  under the same Laplacian.  The Laplacian's entries are computed from the edge list alone.
-/
import proofs.«110723_j71940702208089_1_alg».proof.Proof.LibChebLayers
import proofs.«110723_j71940702208089_1_alg».proof.Proof.HostChain

noncomputable section

namespace Cert.Cheb

open Cert.KernelIdeal Idealize.ShloMosaic

/-- The rescaled Laplacian's entry of each edge, from the edge list. -/
def lapWeight (ei : Arr S2x1600000 .i32) : Arr S1600000 .f32 :=
  edgeWeight (nodeScale (edgeRow0 ei)) (edgeRow0 ei) (edgeRow1 ei)

/-- The first layer's output. -/
def hidden (x : Arr S100000x50 .f32) (ei : Arr S2x1600000 .i32) (W1 : Arr S2x50x32 .f32) (b1 : Arr S32 .f32) : Arr S100000x32 .f32 :=
  reluLayer x (propagate50 x (lapWeight ei) (edgeRow0 ei) (edgeRow1 ei)) (weightA0 W1) (weightA1 W1) b1

/-- The network's output. -/
def output (x : Arr S100000x50 .f32) (ei : Arr S2x1600000 .i32) (W1 : Arr S2x50x32 .f32) (b1 : Arr S32 .f32)
    (W2 : Arr S2x32x10 .f32) (b2 : Arr S10 .f32) : Arr S100000x10 .f32 :=
  lsmLayer (hidden x ei W1 b1) (propagate32 (hidden x ei W1 b1) (lapWeight ei) (edgeRow0 ei) (edgeRow1 ei)) (weightB0 W2) (weightB1 W2) b2

end Cert.Cheb

end
-- ==== Proof.KernelValue.lean ====
/-
  The idealized kernel program computes the network: its result buffer ends holding `output` of the launch contents of
  its six arguments.

  Walk the boundaries back from the end.  The second region leaves the log-softmax layer of what it was entered with;
  it was entered with the first region's output (untouched by the host operations in between), the Laplacian applied
  to that output (those host operations, from the edge weights and the edge rows the first stretches computed), the
  second layer's weights and bias.  The first region leaves the rectified layer of what it was entered with: the node
  features, the Laplacian applied to them, the first layer's weights and bias, all computed by the first stretches
  from the launch contents.
-/
import proofs.«110723_j71940702208089_1_alg».proof.Proof.KernelRun
import proofs.«110723_j71940702208089_1_alg».proof.Proof.Regions
import proofs.«110723_j71940702208089_1_alg».proof.Proof.Model

set_option maxRecDepth 16384

noncomputable section

namespace Cert.Cheb

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## What the first region is entered with -/

theorem entry0_x : V3 m ρ c main_arg0 = m ((c : Thread nD τ).loc main_arg0) := before_arg0 (W0 m ρ c)
theorem entry0_b : V3 m ρ c main_arg3 = m ((c : Thread nD τ).loc main_arg3) := before_arg3 (W0 m ρ c)
theorem entry0_tx : V3 m ρ c main_v42
    = propagate50 (m ((c : Thread nD τ).loc main_arg0)) (lapWeight (m ((c : Thread nD τ).loc main_arg1)))
        (edgeRow0 (m ((c : Thread nD τ).loc main_arg1))) (edgeRow1 (m ((c : Thread nD τ).loc main_arg1))) := before_tx (W0 m ρ c)
theorem entry0_w0 : V3 m ρ c main_v44 = weightA0 (m ((c : Thread nD τ).loc main_arg2)) := before_w0 (W0 m ρ c)
theorem entry0_w1 : V3 m ρ c main_v46 = weightA1 (m ((c : Thread nD τ).loc main_arg2)) := before_w1 (W0 m ρ c)

/-- The first region's output array after it: the first layer. -/
theorem hidden_eq : W4 m ρ c (Proc.devRef .tc main_v47)
    = hidden (m ((c : Thread nD τ).loc main_arg0)) (m ((c : Thread nD τ).loc main_arg1)) (m ((c : Thread nD τ).loc main_arg2))
        (m ((c : Thread nD τ).loc main_arg3)) := by
  refine (W4_arr m ρ c 5).trans ((final0 (V3 m ρ) c).trans ?_)
  rw [entry0_x, entry0_b, entry0_tx, entry0_w0, entry0_w1]
  all_goals rfl

/-! ## What the second region is entered with -/

theorem entry1_h : V5 m ρ c main_v47
    = hidden (m ((c : Thread nD τ).loc main_arg0)) (m ((c : Thread nD τ).loc main_arg1)) (m ((c : Thread nD τ).loc main_arg2))
        (m ((c : Thread nD τ).loc main_arg3)) := (between_h (W4 m ρ c)).trans (hidden_eq m ρ c)

theorem mid_weight : W4 m ρ c (Proc.devRef .tc main_v29) = lapWeight (m ((c : Thread nD τ).loc main_arg1)) :=
  (W4_of_ne m ρ c main_v29 (by decide)).trans (before_weight (W0 m ρ c))
theorem mid_src : W4 m ρ c (Proc.devRef .tc main_v1) = edgeRow0 (m ((c : Thread nD τ).loc main_arg1)) :=
  (W4_of_ne m ρ c main_v1 (by decide)).trans (before_src (W0 m ρ c))
theorem mid_dst : W4 m ρ c (Proc.devRef .tc main_v3) = edgeRow1 (m ((c : Thread nD τ).loc main_arg1)) :=
  (W4_of_ne m ρ c main_v3 (by decide)).trans (before_dst (W0 m ρ c))
theorem mid_arg4 : W4 m ρ c (Proc.devRef .tc main_arg4) = m ((c : Thread nD τ).loc main_arg4) :=
  (W4_of_ne m ρ c main_arg4 (by decide)).trans (before_arg4 (W0 m ρ c))
theorem mid_arg5 : W4 m ρ c (Proc.devRef .tc main_arg5) = m ((c : Thread nD τ).loc main_arg5) :=
  (W4_of_ne m ρ c main_arg5 (by decide)).trans (before_arg5 (W0 m ρ c))

theorem entry1_tx : V5 m ρ c main_v60
    = propagate32 (hidden (m ((c : Thread nD τ).loc main_arg0)) (m ((c : Thread nD τ).loc main_arg1)) (m ((c : Thread nD τ).loc main_arg2))
        (m ((c : Thread nD τ).loc main_arg3))) (lapWeight (m ((c : Thread nD τ).loc main_arg1)))
        (edgeRow0 (m ((c : Thread nD τ).loc main_arg1))) (edgeRow1 (m ((c : Thread nD τ).loc main_arg1))) := by
  refine (between_tx (W4 m ρ c)).trans ?_
  rw [hidden_eq, mid_weight, mid_src, mid_dst]
theorem entry1_w0 : V5 m ρ c main_v62 = weightB0 (m ((c : Thread nD τ).loc main_arg4)) := by
  refine (between_w0 (W4 m ρ c)).trans ?_
  rw [mid_arg4]
theorem entry1_w1 : V5 m ρ c main_v64 = weightB1 (m ((c : Thread nD τ).loc main_arg4)) := by
  refine (between_w1 (W4 m ρ c)).trans ?_
  rw [mid_arg4]
theorem entry1_b : V5 m ρ c main_arg5 = m ((c : Thread nD τ).loc main_arg5) :=
  (between_arg5 (W4 m ρ c)).trans (mid_arg5 m ρ c)

/-- The result buffer at the last boundary: the network's output. -/
theorem output_eq : W6 m ρ c (Proc.devRef .tc main_v65)
    = output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 5).trans ((final1 (V5 m ρ) c).trans ?_)
  rw [entry1_h, entry1_tx, entry1_w0, entry1_w1, entry1_b]
  all_goals rfl

/-- Every weakly fair execution of the idealized kernel program terminates with the result at the network's output
    of the launch contents of the arguments, and the arguments unchanged. -/
theorem kernel_run : θ_run defs (onTc (τ := τ) (main (F := Ideal))) ⟨m, fun _ => 0, ρ⟩ (fun r => ∀ c : Dev nD,
      r.2.mem ((c.tc : Thread nD τ).loc main_v65)
        = output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (output_eq m ρ c), (h c).2⟩) (Cert.KernelIdeal.RunValue.run (F := Ideal) m ρ)

end Cert.Cheb

end
-- ==== Proof.LibHostRowMax.lean ====
/-
  The host's largest entry of each row of a matrix, read at an index — general in the extents.

  A one-operand reduction with a maximum body along the second axis of an `n × m` matrix reads, at `p`, the fold of
  `max`, from the initial value, over the entries `(p, k)` of row `p`: over the extended reals `max` is commutative and
  associative, so the order of the fold does not matter.  (The host-side twin of the vector unit's row maximum.)
-/
import Idealize.ShloMosaic.Lib.ValueIdx
import Idealize.ShloMosaic.PureOps.Ideal.Laws

noncomputable section

namespace Cert.LibHostRowMax

open Idealize.ShloMosaic Idealize.ShloMosaic.ValueIdx

/-- Over the extended reals the host's reduction by `max` of an `n × m` matrix along its second axis reads, at `p`, the
    fold of `max` from the initial value over `k` of the entries `(p, k)`. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduce FloatOps.maximumf x init h' hu (ix1 p)
      = (Finset.univ : Finset (Fin m)).fold max (init (Shape.Idx.first hu)) (fun k : Fin m => x (ix2 p k)) := by
  refine (Host.reduce_eq_fold_single FloatOps.maximumf x init h' h hu (ix1 p)).trans ?_
  have hf : (x ∘ h.lift (ix1 p)) = fun k : Fin m => x (ix2 p k) := funext fun k => congrArg x
    (funext fun c => Fin.ext (by match c with | ⟨0, _⟩ => rfl | ⟨1, _⟩ => rfl))
  exact congrArg (fun f => Finset.fold max (init (Shape.Idx.first hu)) f (Finset.univ : Finset (Fin m))) hf

end Cert.LibHostRowMax

end
-- ==== Proof.RefLayers.lean ====
/-
  The reference program read as the same functions: its graph side is the named host functions, its two dense layers
  are the rectified combine and the row-wise log-softmax of the combine.

  The reference spells the combine with the host's matrix product (the plain sum over the contracted axis on the extended
  reals) and the bias spread in two steps; the rectifier as a maximum with a splat zero; the log-softmax with the host's
  row maximum from minus infinity and the host's row sum from zero.  It computes the edge weights twice, once per layer,
  from the same edge list: the same function both times.
-/
import proofs.«110723_j71940702208089_1_alg».proof.Proof.RefRead
import proofs.«110723_j71940702208089_1_alg».proof.Proof.LibChebLayers
import proofs.«110723_j71940702208089_1_alg».proof.Proof.LibHostRowMax
import proofs.«110723_j71940702208089_1_alg».proof.Proof.HostChain
import proofs.«110723_j71940702208089_1_alg».proof.Proof.Model

set_option maxRecDepth 16384

noncomputable section

open scoped BigOperators

namespace Cert.Cheb.Ref

open Cert.ReferenceIdeal Cert.ReferenceIdeal.Gen Cert.ReferenceIdeal.ReadP Idealize.ShloMosaic Idealize.ShloMosaic.ValueIdx

variable (x0 : (⟨S100000x50, .f32⟩ : BufTy).Contents (Elt Ideal)) (x1 : (⟨S2x1600000, .i32⟩ : BufTy).Contents (Elt Ideal))
  (x2 : (⟨S2x50x32, .f32⟩ : BufTy).Contents (Elt Ideal)) (x3 : (⟨S32, .f32⟩ : BufTy).Contents (Elt Ideal))
  (x4 : (⟨S2x32x10, .f32⟩ : BufTy).Contents (Elt Ideal)) (x5 : (⟨S10, .f32⟩ : BufTy).Contents (Elt Ideal))

/-! ## The graph side -/

theorem src_eq : val_main_v1 (F := Ideal) x1 = Cert.Cheb.edgeRow0 x1 := by
  unfold val_main_v1 val_main_v0 Cert.Cheb.edgeRow0; rfl
theorem dst_eq : val_main_v3 (F := Ideal) x1 = Cert.Cheb.edgeRow1 x1 := by
  unfold val_main_v3 val_main_v2 Cert.Cheb.edgeRow1; rfl

/-- The edge weights the first layer uses. -/
theorem weight_eq : val_main_v29 (F := Ideal) x1
    = Cert.Cheb.edgeWeight (Cert.Cheb.nodeScale (val_main_v1 (F := Ideal) x1)) (val_main_v1 (F := Ideal) x1) (val_main_v3 (F := Ideal) x1) := by
  unfold val_main_v29 val_main_v28 val_main_v27 val_main_v26 val_main_v25 val_main_v24 val_main_c_6 val_main_v23 val_main_v22 val_main_c_5
    val_main_v21 val_main_v20 val_main_v19 val_main_v18 val_main_v17 val_main_v16 val_main_c_4 val_main_v15 val_main_v14 val_main_c
    val_main_v13 val_main_call0_v1 val_main_call0_v0 val_main_cst_3 val_main_v12 val_main_v11 val_main_v10 val_main_cst_2 val_main_v9 val_main_v8
    val_main_cst_1 val_main_v7 val_main_v6 val_main_v5 val_main_cst_0 val_main_v4 val_main_cst
    Cert.Cheb.edgeWeight Cert.Cheb.nodeScale Cert.Cheb.pickScale Cert.Cheb.degPos Cert.Cheb.degRsqrt Cert.Cheb.degree Cert.Cheb.col Cert.Cheb.wrapIdx
  all_goals rfl

/-- The edge weights the second layer computes again: the same. -/
theorem weight2_eq : val_main_v79 (F := Ideal) x1
    = Cert.Cheb.edgeWeight (Cert.Cheb.nodeScale (val_main_v1 (F := Ideal) x1)) (val_main_v1 (F := Ideal) x1) (val_main_v3 (F := Ideal) x1) := by
  unfold val_main_v79 val_main_v78 val_main_v77 val_main_v76 val_main_v75 val_main_v74 val_main_c_18 val_main_v73 val_main_v72 val_main_c_17
    val_main_v71 val_main_v70 val_main_v69 val_main_v68 val_main_v67 val_main_v66 val_main_c_16 val_main_v65 val_main_v64 val_main_c_15
    val_main_v63 val_main_call2_v1 val_main_call2_v0 val_main_cst_14 val_main_v62 val_main_v61 val_main_v60 val_main_cst_13 val_main_v59 val_main_v58
    val_main_cst_12 val_main_v57 val_main_v56 val_main_v55 val_main_cst_11 val_main_v54 val_main_cst_10
    Cert.Cheb.edgeWeight Cert.Cheb.nodeScale Cert.Cheb.pickScale Cert.Cheb.degPos Cert.Cheb.degRsqrt Cert.Cheb.degree Cert.Cheb.col Cert.Cheb.wrapIdx
  all_goals rfl

/-- The Laplacian applied to the node features. -/
theorem tx1_eq : val_main_v42 (F := Ideal) x0 x1
    = Cert.Cheb.propagate50 x0 (val_main_v29 (F := Ideal) x1) (val_main_v1 (F := Ideal) x1) (val_main_v3 (F := Ideal) x1) := by
  unfold val_main_v42 val_main_v41 val_main_v40 val_main_cst_9 val_main_v39 val_main_v38 val_main_v37 val_main_v36 val_main_v35 val_main_v34
    val_main_v33 val_main_c_8 val_main_v32 val_main_v31 val_main_c_7 val_main_v30
    Cert.Cheb.propagate50 Cert.Cheb.col Cert.Cheb.wrapIdx
  all_goals rfl

/-- The Laplacian applied to the first layer's output. -/
theorem tx2_eq : val_main_v92 (F := Ideal) x0 x1 x2 x3
    = Cert.Cheb.propagate32 (val_main_v53 (F := Ideal) x0 x1 x2 x3) (val_main_v79 (F := Ideal) x1) (val_main_v1 (F := Ideal) x1) (val_main_v3 (F := Ideal) x1) := by
  unfold val_main_v92 val_main_v91 val_main_v90 val_main_cst_21 val_main_v89 val_main_v88 val_main_v87 val_main_v86 val_main_v85 val_main_v84
    val_main_v83 val_main_c_20 val_main_v82 val_main_v81 val_main_c_19 val_main_v80
    Cert.Cheb.propagate32 Cert.Cheb.col Cert.Cheb.wrapIdx
  all_goals rfl

theorem wA0_eq : val_main_v44 (F := Ideal) x2 = Cert.Cheb.weightA0 x2 := by
  unfold val_main_v44 val_main_v43 Cert.Cheb.weightA0; rfl
theorem wA1_eq : val_main_v47 (F := Ideal) x2 = Cert.Cheb.weightA1 x2 := by
  unfold val_main_v47 val_main_v46 Cert.Cheb.weightA1; rfl
theorem wB0_eq : val_main_v94 (F := Ideal) x4 = Cert.Cheb.weightB0 x4 := by
  unfold val_main_v94 val_main_v93 Cert.Cheb.weightB0; rfl
theorem wB1_eq : val_main_v97 (F := Ideal) x4 = Cert.Cheb.weightB1 x4 := by
  unfold val_main_v97 val_main_v96 Cert.Cheb.weightB1; rfl

/-! ## The first layer -/

/-- The reference's first combine, entry by entry. -/
theorem combine1_apply (i : S100000x32.Idx) :
    val_main_v52 (F := Ideal) x0 x1 x2 x3 i
      = combineAt x0 (val_main_v42 (F := Ideal) x0 x1) (val_main_v44 (F := Ideal) x2) (val_main_v47 (F := Ideal) x2) x3 (i 0) (i 1) := by
  rw [val_main_v52_apply, val_main_v49_apply, val_main_v45_apply, val_main_v48_apply, val_main_v51_apply, val_main_v50_apply]
  have e1 : ∀ k : Fin 50, lidx_main_v45 i k = ix2 (n0 := 100000) (i 0) k := fun k => funext fun a => by
    match a with | ⟨0, _⟩ => rfl | ⟨1, _⟩ => rfl
  have e2 : ∀ k : Fin 50, ridx_main_v45 i k = ix2 (n1 := 32) k (i 1) := fun k => funext fun a => by
    match a with | ⟨0, _⟩ => rfl | ⟨1, _⟩ => rfl
  have e3 : ∀ k : Fin 50, lidx_main_v48 i k = ix2 (n0 := 100000) (i 0) k := fun k => funext fun a => by
    match a with | ⟨0, _⟩ => rfl | ⟨1, _⟩ => rfl
  have e4 : ∀ k : Fin 50, ridx_main_v48 i k = ix2 (n1 := 32) k (i 1) := fun k => funext fun a => by
    match a with | ⟨0, _⟩ => rfl | ⟨1, _⟩ => rfl
  have e5 : idx_main_v50 (idx_main_v51 i) = ix1 (n := 32) (i 1) := funext fun a => by
    match a with | ⟨0, _⟩ => rfl
  simp only [e1, e2, e3, e4, e5]
  all_goals rfl

/-- The reference's first layer is the rectified combine. -/
theorem layer1_eq : val_main_v53 (F := Ideal) x0 x1 x2 x3
    = reluLayer x0 (val_main_v42 (F := Ideal) x0 x1) (val_main_v44 (F := Ideal) x2) (val_main_v47 (F := Ideal) x2) x3 := by
  funext i
  rw [val_main_v53_apply, val_main_call1_v0_apply, val_main_call1_cst_apply, combine1_apply]
  all_goals rfl

/-! ## The second layer -/

/-- The reference's second combine, entry by entry. -/
theorem combine2_apply (i : S100000x10.Idx) :
    val_main_v102 (F := Ideal) x0 x1 x2 x3 x4 x5 i
      = combineAt (val_main_v53 (F := Ideal) x0 x1 x2 x3) (val_main_v92 (F := Ideal) x0 x1 x2 x3) (val_main_v94 (F := Ideal) x4)
          (val_main_v97 (F := Ideal) x4) x5 (i 0) (i 1) := by
  rw [val_main_v102_apply, val_main_v99_apply, val_main_v95_apply, val_main_v98_apply, val_main_v101_apply, val_main_v100_apply]
  have e1 : ∀ k : Fin 32, lidx_main_v95 i k = ix2 (n0 := 100000) (i 0) k := fun k => funext fun a => by
    match a with | ⟨0, _⟩ => rfl | ⟨1, _⟩ => rfl
  have e2 : ∀ k : Fin 32, ridx_main_v95 i k = ix2 (n1 := 10) k (i 1) := fun k => funext fun a => by
    match a with | ⟨0, _⟩ => rfl | ⟨1, _⟩ => rfl
  have e3 : ∀ k : Fin 32, lidx_main_v98 i k = ix2 (n0 := 100000) (i 0) k := fun k => funext fun a => by
    match a with | ⟨0, _⟩ => rfl | ⟨1, _⟩ => rfl
  have e4 : ∀ k : Fin 32, ridx_main_v98 i k = ix2 (n1 := 10) k (i 1) := fun k => funext fun a => by
    match a with | ⟨0, _⟩ => rfl | ⟨1, _⟩ => rfl
  have e5 : idx_main_v100 (idx_main_v101 i) = ix1 (n := 10) (i 1) := funext fun a => by
    match a with | ⟨0, _⟩ => rfl
  simp only [e1, e2, e3, e4, e5]
  all_goals rfl

/-- The largest entry of a row of the second combine, as the reference computes it. -/
theorem top_apply (p : Fin 100000) :
    val_main_call3_v2 (F := Ideal) x0 x1 x2 x3 x4 x5 (ix1 p) = rowTop (fun k : Fin 10 => val_main_v102 (F := Ideal) x0 x1 x2 x3 x4 x5 (ix2 p k)) := by
  rw [val_main_call3_v2_apply, val_main_call3_v1_apply, val_main_call3_cst_0_apply]
  unfold rowTop val_main_call3_v0
  refine congrArg₂ max rfl ?_
  exact Cert.LibHostRowMax.hostRowMax_apply (val_main_v102 (F := Ideal) x0 x1 x2 x3 x4 x5) (val_main_call3_cst (F := Ideal))
    reducesTo_S100000x10_S100000_d1 (by decide) h_S_ p

/-- A shifted entry of the second combine. -/
theorem shifted_apply (p : Fin 100000) (q : Fin 10) :
    val_main_call3_v5 (F := Ideal) x0 x1 x2 x3 x4 x5 (ix2 p q)
      = val_main_v102 (F := Ideal) x0 x1 x2 x3 x4 x5 (ix2 p q) - rowTop (fun k : Fin 10 => val_main_v102 (F := Ideal) x0 x1 x2 x3 x4 x5 (ix2 p k)) := by
  rw [val_main_call3_v5_apply, val_main_call3_v4_apply, val_main_call3_v3_apply]
  have e : idx_main_call3_v3 (idx_main_call3_v4 (ix2 p q)) = ix1 p := funext fun a => by
    match a with | ⟨0, _⟩ => rfl
  rw [e, top_apply]
  all_goals rfl

/-- The reference's second layer is the row-wise log-softmax of the combine. -/
theorem layer2_eq : val_main_v103 (F := Ideal) x0 x1 x2 x3 x4 x5
    = lsmLayer (val_main_v53 (F := Ideal) x0 x1 x2 x3) (val_main_v92 (F := Ideal) x0 x1 x2 x3) (val_main_v94 (F := Ideal) x4)
        (val_main_v97 (F := Ideal) x4) x5 := by
  funext i
  obtain ⟨p, q, rfl⟩ : ∃ (p : Fin 100000) (q : Fin 10), i = ix2 p q := ⟨i 0, i 1, eq_ix2 i⟩
  have hz : ∀ k : Fin 10, val_main_v102 (F := Ideal) x0 x1 x2 x3 x4 x5 (ix2 p k)
      = combineAt (val_main_v53 (F := Ideal) x0 x1 x2 x3) (val_main_v92 (F := Ideal) x0 x1 x2 x3) (val_main_v94 (F := Ideal) x4)
          (val_main_v97 (F := Ideal) x4) x5 p k := fun k => combine2_apply x0 x1 x2 x3 x4 x5 (ix2 p k)
  show _ = lsmAt (fun k => combineAt (val_main_v53 (F := Ideal) x0 x1 x2 x3) (val_main_v92 (F := Ideal) x0 x1 x2 x3)
    (val_main_v94 (F := Ideal) x4) (val_main_v97 (F := Ideal) x4) x5 p k) q
  rw [← funext hz]
  rw [val_main_v103_apply, val_main_call3_v10_apply, val_main_call3_v9_apply, val_main_call3_v8_apply, val_main_call3_v7_apply,
    val_main_call3_cst_1_apply, shifted_apply]
  unfold lsmAt
  refine congrArg₂ (· - ·) rfl ?_
  refine congrArg Ideal.log ?_
  refine (congrArg₂ (· + ·) Ideal.ofBits_zero_f32 rfl).trans ((zero_add _).trans ?_)
  refine Finset.sum_congr rfl fun k _ => ?_
  have e : idx_main_call3_v7 (idx_main_call3_v8 (idx_main_call3_v10 (ix2 p q))) k = ix2 p k := funext fun a => by
    match a with | ⟨0, _⟩ => rfl | ⟨1, _⟩ => rfl
  rw [e, val_main_call3_v6_apply, shifted_apply]
  all_goals rfl

/-! ## The reference computes the network -/

theorem hidden_ref : val_main_v53 (F := Ideal) x0 x1 x2 x3 = Cert.Cheb.hidden x0 x1 x2 x3 := by
  rw [layer1_eq, tx1_eq, weight_eq, src_eq, dst_eq, wA0_eq, wA1_eq]
  all_goals rfl

theorem output_ref : val_main_v103 (F := Ideal) x0 x1 x2 x3 x4 x5 = Cert.Cheb.output x0 x1 x2 x3 x4 x5 := by
  rw [layer2_eq, tx2_eq, weight2_eq, hidden_ref, src_eq, dst_eq, wB0_eq, wB1_eq]
  all_goals rfl

end Cert.Cheb.Ref

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefRun.lean ====
/-
  The idealized reference program's run, read back in twelve stretches.

  The reference is one line of 148 host operations.  Each result is a long composition of the arguments, and the edge
  weights are computed twice, so the composition is read stretch by stretch instead of all at once: after each stretch the
  buffers later stretches read hold the stage functions (Proof/RefRead.lean: one function of the arguments per
  operation) of the launch contents, given that the stretch's own inputs did.  A buffer a stretch does not write keeps
  its contents.  At the end the result buffer holds the last stage of the launch contents of the six arguments.
-/
import proofs.«110723_j71940702208089_1_alg».proof.Proof.Gen.ReferenceIdeal
import proofs.«110723_j71940702208089_1_alg».proof.Proof.RefRead
import Idealize.ShloMosaic.Lib.StableHlo.Run
import Idealize.ShloMosaic.PureOps.Ideal
import proofs.«110723_j71940702208089_1_alg».proof.Proof.LibHostLine

set_option maxRecDepth 16384

noncomputable section

namespace Cert.ReferenceIdeal.RunStaged

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 148 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v20 main_v21 (Host.negf : (⟨S1600000, .f32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    unary main_v29 main_v30 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_arg0 main_v36 main_v37 ((fun x i => Host.gather gather_S100000x50_S1600000x1_S1600000x50_1_0_n_n_0_1_150 x i) : (⟨S100000x50, .f32⟩ : BufTy).Contents (Elt F) → (⟨S1600000x1, .i32⟩ : BufTy).Contents (Elt F) → (⟨S1600000x50, .f32⟩ : BufTy).Contents (Elt F)),
    unary main_v30 main_v38 (broadcastInDim S1600000x50 ![0, 1] bcast_S1600000x1_S1600000x50_0_1 : (⟨S1600000x1, .f32⟩ : BufTy).Contents (Elt F) → (⟨S1600000x50, .f32⟩ : BufTy).Contents (Elt F)),
    binary main_v38 main_v37 main_v39 (mulf : (⟨S1600000x50, .f32⟩ : BufTy).Contents (Elt F) → (⟨S1600000x50, .f32⟩ : BufTy).Contents (Elt F) → (⟨S1600000x50, .f32⟩ : BufTy).Contents (Elt F)),
    nullary main_cst_9 (constant S_ .f32 0x00000000#32),
    unary main_cst_9 main_v40 (broadcastInDim S100000x50 ![] bcast_S_S100000x50 : (⟨S_, .f32⟩ : BufTy).Contents (Elt F) → (⟨S100000x50, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x50_S1600000x1_S1600000x50_1_0_0_1 x i u) : (⟨S100000x50, .f32⟩ : BufTy).Contents (Elt F) → (⟨S1600000x1, .i32⟩ : BufTy).Contents (Elt F) → (⟨S1600000x50, .f32⟩ : BufTy).Contents (Elt F) → (⟨S100000x50, .f32⟩ : BufTy).Contents (Elt F)),
    unary main_arg2 main_v43 ((extractStridedSlice S1x50x32 ![0, 0, 0] · slices_S2x50x32_S1x50x32_0_0_0) : (⟨S2x50x32, .f32⟩ : BufTy).Contents (Elt F) → (⟨S1x50x32, .f32⟩ : BufTy).Contents (Elt F)),
    reshape main_v43 main_v44 rfl shapeCasts_S1x50x32_S50x32,
    binary main_arg0 main_v44 main_v45 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    unary main_arg2 main_v46 ((extractStridedSlice S1x50x32 ![1, 0, 0] · slices_S2x50x32_S1x50x32_1_0_0) : (⟨S2x50x32, .f32⟩ : BufTy).Contents (Elt F) → (⟨S1x50x32, .f32⟩ : BufTy).Contents (Elt F)),
    reshape main_v46 main_v47 rfl shapeCasts_S1x50x32_S50x32,
    binary main_v42 main_v47 main_v48 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    binary main_v45 main_v48 main_v49 (addf : (⟨S100000x32, .f32⟩ : BufTy).Contents (Elt F) → (⟨S100000x32, .f32⟩ : BufTy).Contents (Elt F) → (⟨S100000x32, .f32⟩ : BufTy).Contents (Elt F)),
    unary main_arg3 main_v50 (broadcastInDim S1x32 ![1] bcast_S32_S1x32_1 : (⟨S32, .f32⟩ : BufTy).Contents (Elt F) → (⟨S1x32, .f32⟩ : BufTy).Contents (Elt F)),
    unary main_v50 main_v51 (broadcastInDim S100000x32 ![0, 1] bcast_S1x32_S100000x32_0_1 : (⟨S1x32, .f32⟩ : BufTy).Contents (Elt F) → (⟨S100000x32, .f32⟩ : BufTy).Contents (Elt F)),
    binary main_v49 main_v51 main_v52 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v52) (TRef.of (T := ⟨S100000x32, .f32⟩) main_call1_v0) (TRef.of (T := ⟨S100000x32, .f32⟩) main_v53) maximumf,
    nullary main_cst_10 (constant S_ .f32 0x3F800000#32),
    unary main_cst_10 main_v54 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v1 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v60 (broadcastInDim S100000 ![] bcast_S_S100000 : (⟨S_, .f32⟩ : BufTy).Contents (Elt F) → (⟨S100000, .f32⟩ : BufTy).Contents (Elt F)),
    binary main_v57 main_v60 main_v61 (maximumf : (⟨S100000, .f32⟩ : BufTy).Contents (Elt F) → (⟨S100000, .f32⟩ : BufTy).Contents (Elt F) → (⟨S100000, .f32⟩ : BufTy).Contents (Elt F)),
    unary main_v61 main_v62 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v62) (TRef.of (T := ⟨S100000, .f32⟩) main_call2_v1) (TRef.of (T := ⟨S100000, .f32⟩) main_v63) select,
    nullary main_c_15 (constantI S_ 32 0#32),
    unary main_c_15 main_v64 (broadcastInDim S1600000 ![] bcast_S_S1600000 : (⟨S_, .i32⟩ : BufTy).Contents (Elt F) → (⟨S1600000, .i32⟩ : BufTy).Contents (Elt F)),
    binary main_v1 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v66 (broadcastInDim S1600000 ![] bcast_S_S1600000 : (⟨S_, .i32⟩ : BufTy).Contents (Elt F) → (⟨S1600000, .i32⟩ : BufTy).Contents (Elt F)),
    binary main_v1 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v63 main_v69 main_v70 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v70 main_v71 (Host.negf : (⟨S1600000, .f32⟩ : BufTy).Contents (Elt F) → (⟨S1600000, .f32⟩ : BufTy).Contents (Elt F)),
    nullary main_c_17 (constantI S_ 32 0#32),
    unary main_c_17 main_v72 (broadcastInDim S1600000 ![] bcast_S_S1600000 : (⟨S_, .i32⟩ : BufTy).Contents (Elt F) → (⟨S1600000, .i32⟩ : BufTy).Contents (Elt F)),
    binary main_v3 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v74 (broadcastInDim S1600000 ![] bcast_S_S1600000 : (⟨S_, .i32⟩ : BufTy).Contents (Elt F) → (⟨S1600000, .i32⟩ : BufTy).Contents (Elt F)),
    binary main_v3 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v3 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v63 main_v77 main_v78 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v71 main_v78 main_v79 (mulf : (⟨S1600000, .f32⟩ : BufTy).Contents (Elt F) → (⟨S1600000, .f32⟩ : BufTy).Contents (Elt F) → (⟨S1600000, .f32⟩ : BufTy).Contents (Elt F)),
    unary main_v79 main_v80 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v81 (broadcastInDim S1600000 ![] bcast_S_S1600000 : (⟨S_, .i32⟩ : BufTy).Contents (Elt F) → (⟨S1600000, .i32⟩ : BufTy).Contents (Elt F)),
    binary main_v1 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v83 (broadcastInDim S1600000 ![] bcast_S_S1600000 : (⟨S_, .i32⟩ : BufTy).Contents (Elt F) → (⟨S1600000, .i32⟩ : BufTy).Contents (Elt F)),
    binary main_v1 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v53 main_v86 main_v87 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v80 main_v88 (broadcastInDim S1600000x32 ![0, 1] bcast_S1600000x1_S1600000x32_0_1 : (⟨S1600000x1, .f32⟩ : BufTy).Contents (Elt F) → (⟨S1600000x32, .f32⟩ : BufTy).Contents (Elt F)),
    binary main_v88 main_v87 main_v89 (mulf : (⟨S1600000x32, .f32⟩ : BufTy).Contents (Elt F) → (⟨S1600000x32, .f32⟩ : BufTy).Contents (Elt F) → (⟨S1600000x32, .f32⟩ : BufTy).Contents (Elt F)),
    nullary main_cst_21 (constant S_ .f32 0x00000000#32),
    unary main_cst_21 main_v90 (broadcastInDim S100000x32 ![] bcast_S_S100000x32 : (⟨S_, .f32⟩ : BufTy).Contents (Elt F) → (⟨S100000x32, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg4 main_v93 ((extractStridedSlice S1x32x10 ![0, 0, 0] · slices_S2x32x10_S1x32x10_0_0_0) : (⟨S2x32x10, .f32⟩ : BufTy).Contents (Elt F) → (⟨S1x32x10, .f32⟩ : BufTy).Contents (Elt F)),
    reshape main_v93 main_v94 rfl shapeCasts_S1x32x10_S32x10,
    binary main_v53 main_v94 main_v95 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    unary main_arg4 main_v96 ((extractStridedSlice S1x32x10 ![1, 0, 0] · slices_S2x32x10_S1x32x10_1_0_0) : (⟨S2x32x10, .f32⟩ : BufTy).Contents (Elt F) → (⟨S1x32x10, .f32⟩ : BufTy).Contents (Elt F)),
    reshape main_v96 main_v97 rfl shapeCasts_S1x32x10_S32x10,
    binary main_v92 main_v97 main_v98 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    binary main_v95 main_v98 main_v99 (addf : (⟨S100000x10, .f32⟩ : BufTy).Contents (Elt F) → (⟨S100000x10, .f32⟩ : BufTy).Contents (Elt F) → (⟨S100000x10, .f32⟩ : BufTy).Contents (Elt F)),
    unary main_arg5 main_v100 (broadcastInDim S1x10 ![1] bcast_S10_S1x10_1 : (⟨S10, .f32⟩ : BufTy).Contents (Elt F) → (⟨S1x10, .f32⟩ : BufTy).Contents (Elt F)),
    unary main_v100 main_v101 (broadcastInDim S100000x10 ![0, 1] bcast_S1x10_S100000x10_0_1 : (⟨S1x10, .f32⟩ : BufTy).Contents (Elt F) → (⟨S100000x10, .f32⟩ : BufTy).Contents (Elt F)),
    binary main_v99 main_v101 main_v102 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call3_cst) (constant S_ .f32 0xFF800000#32),
    TRef.binary (TRef.of (T := ⟨S100000x10, .f32⟩) main_v102) (TRef.of (T := ⟨S_, .f32⟩) main_call3_cst) (TRef.of (T := ⟨S100000, .f32⟩) main_call3_v0) (fun x v => Host.reduce FloatOps.maximumf x v reducesTo_S100000x10_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v102) (TRef.of (T := ⟨S100000x10, .f32⟩) main_call3_v4) (TRef.of (T := ⟨S100000x10, .f32⟩) main_call3_v5) subf,
    TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v103) subf ]
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The twelve stretches -/

/-- Operations 1 to 18. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32) ]

/-- Operations 19 to 21. -/
abbrev opsB : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select ]

/-- Operations 22 to 57. -/
abbrev opsC : List (HloOp τ sig (Elt F)) :=
  [ nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v20 main_v21 (Host.negf : (⟨S1600000, .f32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    unary main_v29 main_v30 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_arg0 main_v36 main_v37 ((fun x i => Host.gather gather_S100000x50_S1600000x1_S1600000x50_1_0_n_n_0_1_150 x i) : (⟨S100000x50, .f32⟩ : BufTy).Contents (Elt F) → (⟨S1600000x1, .i32⟩ : BufTy).Contents (Elt F) → (⟨S1600000x50, .f32⟩ : BufTy).Contents (Elt F)),
    unary main_v30 main_v38 (broadcastInDim S1600000x50 ![0, 1] bcast_S1600000x1_S1600000x50_0_1 : (⟨S1600000x1, .f32⟩ : BufTy).Contents (Elt F) → (⟨S1600000x50, .f32⟩ : BufTy).Contents (Elt F)),
    binary main_v38 main_v37 main_v39 (mulf : (⟨S1600000x50, .f32⟩ : BufTy).Contents (Elt F) → (⟨S1600000x50, .f32⟩ : BufTy).Contents (Elt F) → (⟨S1600000x50, .f32⟩ : BufTy).Contents (Elt F)),
    nullary main_cst_9 (constant S_ .f32 0x00000000#32),
    unary main_cst_9 main_v40 (broadcastInDim S100000x50 ![] bcast_S_S100000x50 : (⟨S_, .f32⟩ : BufTy).Contents (Elt F) → (⟨S100000x50, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x50_S1600000x1_S1600000x50_1_0_0_1 x i u) : (⟨S100000x50, .f32⟩ : BufTy).Contents (Elt F) → (⟨S1600000x1, .i32⟩ : BufTy).Contents (Elt F) → (⟨S1600000x50, .f32⟩ : BufTy).Contents (Elt F) → (⟨S100000x50, .f32⟩ : BufTy).Contents (Elt F)) ]

/-- Operations 58 to 70. -/
abbrev opsD : List (HloOp τ sig (Elt F)) :=
  [ unary main_arg2 main_v43 ((extractStridedSlice S1x50x32 ![0, 0, 0] · slices_S2x50x32_S1x50x32_0_0_0) : (⟨S2x50x32, .f32⟩ : BufTy).Contents (Elt F) → (⟨S1x50x32, .f32⟩ : BufTy).Contents (Elt F)),
    reshape main_v43 main_v44 rfl shapeCasts_S1x50x32_S50x32,
    binary main_arg0 main_v44 main_v45 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    unary main_arg2 main_v46 ((extractStridedSlice S1x50x32 ![1, 0, 0] · slices_S2x50x32_S1x50x32_1_0_0) : (⟨S2x50x32, .f32⟩ : BufTy).Contents (Elt F) → (⟨S1x50x32, .f32⟩ : BufTy).Contents (Elt F)),
    reshape main_v46 main_v47 rfl shapeCasts_S1x50x32_S50x32,
    binary main_v42 main_v47 main_v48 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    binary main_v45 main_v48 main_v49 (addf : (⟨S100000x32, .f32⟩ : BufTy).Contents (Elt F) → (⟨S100000x32, .f32⟩ : BufTy).Contents (Elt F) → (⟨S100000x32, .f32⟩ : BufTy).Contents (Elt F)),
    unary main_arg3 main_v50 (broadcastInDim S1x32 ![1] bcast_S32_S1x32_1 : (⟨S32, .f32⟩ : BufTy).Contents (Elt F) → (⟨S1x32, .f32⟩ : BufTy).Contents (Elt F)),
    unary main_v50 main_v51 (broadcastInDim S100000x32 ![0, 1] bcast_S1x32_S100000x32_0_1 : (⟨S1x32, .f32⟩ : BufTy).Contents (Elt F) → (⟨S100000x32, .f32⟩ : BufTy).Contents (Elt F)),
    binary main_v49 main_v51 main_v52 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v52) (TRef.of (T := ⟨S100000x32, .f32⟩) main_call1_v0) (TRef.of (T := ⟨S100000x32, .f32⟩) main_v53) maximumf ]

/-- Operations 71 to 84. -/
abbrev opsE : List (HloOp τ sig (Elt F)) :=
  [ nullary main_cst_10 (constant S_ .f32 0x3F800000#32),
    unary main_cst_10 main_v54 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v1 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v60 (broadcastInDim S100000 ![] bcast_S_S100000 : (⟨S_, .f32⟩ : BufTy).Contents (Elt F) → (⟨S100000, .f32⟩ : BufTy).Contents (Elt F)),
    binary main_v57 main_v60 main_v61 (maximumf : (⟨S100000, .f32⟩ : BufTy).Contents (Elt F) → (⟨S100000, .f32⟩ : BufTy).Contents (Elt F) → (⟨S100000, .f32⟩ : BufTy).Contents (Elt F)),
    unary main_v61 main_v62 (Host.rsqrt : (⟨S100000, .f32⟩ : BufTy).Contents (Elt F) → (⟨S100000, .f32⟩ : BufTy).Contents (Elt F)),
    nullary main_cst_14 (constant S_ .f32 0x00000000#32) ]

/-- Operations 85 to 87. -/
abbrev opsF : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v62) (TRef.of (T := ⟨S100000, .f32⟩) main_call2_v1) (TRef.of (T := ⟨S100000, .f32⟩) main_v63) select ]

/-- Operations 88 to 123. -/
abbrev opsG : List (HloOp τ sig (Elt F)) :=
  [ nullary main_c_15 (constantI S_ 32 0#32),
    unary main_c_15 main_v64 (broadcastInDim S1600000 ![] bcast_S_S1600000 : (⟨S_, .i32⟩ : BufTy).Contents (Elt F) → (⟨S1600000, .i32⟩ : BufTy).Contents (Elt F)),
    binary main_v1 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v66 (broadcastInDim S1600000 ![] bcast_S_S1600000 : (⟨S_, .i32⟩ : BufTy).Contents (Elt F) → (⟨S1600000, .i32⟩ : BufTy).Contents (Elt F)),
    binary main_v1 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v63 main_v69 main_v70 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v70 main_v71 (Host.negf : (⟨S1600000, .f32⟩ : BufTy).Contents (Elt F) → (⟨S1600000, .f32⟩ : BufTy).Contents (Elt F)),
    nullary main_c_17 (constantI S_ 32 0#32),
    unary main_c_17 main_v72 (broadcastInDim S1600000 ![] bcast_S_S1600000 : (⟨S_, .i32⟩ : BufTy).Contents (Elt F) → (⟨S1600000, .i32⟩ : BufTy).Contents (Elt F)),
    binary main_v3 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v74 (broadcastInDim S1600000 ![] bcast_S_S1600000 : (⟨S_, .i32⟩ : BufTy).Contents (Elt F) → (⟨S1600000, .i32⟩ : BufTy).Contents (Elt F)),
    binary main_v3 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v3 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v63 main_v77 main_v78 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v71 main_v78 main_v79 (mulf : (⟨S1600000, .f32⟩ : BufTy).Contents (Elt F) → (⟨S1600000, .f32⟩ : BufTy).Contents (Elt F) → (⟨S1600000, .f32⟩ : BufTy).Contents (Elt F)),
    unary main_v79 main_v80 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v81 (broadcastInDim S1600000 ![] bcast_S_S1600000 : (⟨S_, .i32⟩ : BufTy).Contents (Elt F) → (⟨S1600000, .i32⟩ : BufTy).Contents (Elt F)),
    binary main_v1 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v83 (broadcastInDim S1600000 ![] bcast_S_S1600000 : (⟨S_, .i32⟩ : BufTy).Contents (Elt F) → (⟨S1600000, .i32⟩ : BufTy).Contents (Elt F)),
    binary main_v1 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v53 main_v86 main_v87 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v80 main_v88 (broadcastInDim S1600000x32 ![0, 1] bcast_S1600000x1_S1600000x32_0_1 : (⟨S1600000x1, .f32⟩ : BufTy).Contents (Elt F) → (⟨S1600000x32, .f32⟩ : BufTy).Contents (Elt F)),
    binary main_v88 main_v87 main_v89 (mulf : (⟨S1600000x32, .f32⟩ : BufTy).Contents (Elt F) → (⟨S1600000x32, .f32⟩ : BufTy).Contents (Elt F) → (⟨S1600000x32, .f32⟩ : BufTy).Contents (Elt F)),
    nullary main_cst_21 (constant S_ .f32 0x00000000#32),
    unary main_cst_21 main_v90 (broadcastInDim S100000x32 ![] bcast_S_S100000x32 : (⟨S_, .f32⟩ : BufTy).Contents (Elt F) → (⟨S100000x32, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]

/-- Operations 124 to 133. -/
abbrev opsH : List (HloOp τ sig (Elt F)) :=
  [ unary main_arg4 main_v93 ((extractStridedSlice S1x32x10 ![0, 0, 0] · slices_S2x32x10_S1x32x10_0_0_0) : (⟨S2x32x10, .f32⟩ : BufTy).Contents (Elt F) → (⟨S1x32x10, .f32⟩ : BufTy).Contents (Elt F)),
    reshape main_v93 main_v94 rfl shapeCasts_S1x32x10_S32x10,
    binary main_v53 main_v94 main_v95 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    unary main_arg4 main_v96 ((extractStridedSlice S1x32x10 ![1, 0, 0] · slices_S2x32x10_S1x32x10_1_0_0) : (⟨S2x32x10, .f32⟩ : BufTy).Contents (Elt F) → (⟨S1x32x10, .f32⟩ : BufTy).Contents (Elt F)),
    reshape main_v96 main_v97 rfl shapeCasts_S1x32x10_S32x10,
    binary main_v92 main_v97 main_v98 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    binary main_v95 main_v98 main_v99 (addf : (⟨S100000x10, .f32⟩ : BufTy).Contents (Elt F) → (⟨S100000x10, .f32⟩ : BufTy).Contents (Elt F) → (⟨S100000x10, .f32⟩ : BufTy).Contents (Elt F)),
    unary main_arg5 main_v100 (broadcastInDim S1x10 ![1] bcast_S10_S1x10_1 : (⟨S10, .f32⟩ : BufTy).Contents (Elt F) → (⟨S1x10, .f32⟩ : BufTy).Contents (Elt F)),
    unary main_v100 main_v101 (broadcastInDim S100000x10 ![0, 1] bcast_S1x10_S100000x10_0_1 : (⟨S1x10, .f32⟩ : BufTy).Contents (Elt F) → (⟨S100000x10, .f32⟩ : BufTy).Contents (Elt F)),
    binary main_v99 main_v101 main_v102 (addf : (⟨S100000x10, .f32⟩ : BufTy).Contents (Elt F) → (⟨S100000x10, .f32⟩ : BufTy).Contents (Elt F) → (⟨S100000x10, .f32⟩ : BufTy).Contents (Elt F)) ]

/-- Operations 134 to 138. -/
abbrev opsI : List (HloOp τ sig (Elt F)) :=
  [ TRef.nullary (TRef.of (T := ⟨S_, .f32⟩) main_call3_cst) (constant S_ .f32 0xFF800000#32),
    TRef.binary (TRef.of (T := ⟨S100000x10, .f32⟩) main_v102) (TRef.of (T := ⟨S_, .f32⟩) main_call3_cst) (TRef.of (T := ⟨S100000, .f32⟩) main_call3_v0) (fun x v => Host.reduce FloatOps.maximumf x v reducesTo_S100000x10_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 139 to 141. -/
abbrev opsJ : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v102) (TRef.of (T := ⟨S100000x10, .f32⟩) main_call3_v4) (TRef.of (T := ⟨S100000x10, .f32⟩) main_call3_v5) subf ]

/-- Operations 142 to 144. -/
abbrev opsK : List (HloOp τ sig (Elt F)) :=
  [ TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_) ]

/-- Operations 145 to 148. -/
abbrev opsL : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v103) subf ]

/-- The line is the twelve stretches in a row. -/
theorem ops_split : (ops (F := F)) = opsA (F := F) ++ (opsB (F := F) ++ (opsC (F := F) ++ (opsD (F := F) ++ (opsE (F := F) ++ (opsF (F := F) ++ (opsG (F := F) ++ (opsH (F := F) ++ (opsI (F := F) ++ (opsJ (F := F) ++ (opsK (F := F) ++ (opsL (F := F)))))))))))) := rfl

theorem after_ops (W : Valuation τ sig (Elt F)) :
    StableHlo.after (ops (F := F)) W = StableHlo.after (opsL (F := F)) (StableHlo.after (opsK (F := F)) (StableHlo.after (opsJ (F := F)) (StableHlo.after (opsI (F := F)) (StableHlo.after (opsH (F := F)) (StableHlo.after (opsG (F := F)) (StableHlo.after (opsF (F := F)) (StableHlo.after (opsE (F := F)) (StableHlo.after (opsD (F := F)) (StableHlo.after (opsC (F := F)) (StableHlo.after (opsB (F := F)) (StableHlo.after (opsA (F := F)) (W)))))))))))) := by
  rw [ops_split]
  simp only [Cert.LibHostLine.after_append]

/-! ## Each stretch: its results are the stage functions when its inputs are; what it does not write, it keeps -/

/-- What a call of @_where leaves: the second operand where the mask is set, the splat third operand elsewhere. -/
def pick (p : (⟨S100000, .i1⟩ : BufTy).Contents (Elt Ideal)) (a : (⟨S100000, .f32⟩ : BufTy).Contents (Elt Ideal))
    (z : (⟨S_, .f32⟩ : BufTy).Contents (Elt Ideal)) : (⟨S100000, .f32⟩ : BufTy).Contents (Elt Ideal) :=
  select p a (broadcastInDim S100000 ![] bcast_S_S100000 (id z))

/-- Each row's largest entry, taken from minus infinity (and compared with it once more). -/
def hostTop (x : (⟨S100000x10, .f32⟩ : BufTy).Contents (Elt Ideal)) : (⟨S100000, .f32⟩ : BufTy).Contents (Elt Ideal) :=
  maximumf (F := Ideal) (φ := .f32) (broadcastInDim S100000 ![] bcast_S_S100000 (constant (F := Ideal) S_ .f32 0xFF800000#32))
    (Host.reduce FloatOps.maximumf x (constant (F := Ideal) S_ .f32 0xFF800000#32) reducesTo_S100000x10_S100000_d1 h_S_)

/-- A matrix minus a per-row number. -/
def hostShift (x : (⟨S100000x10, .f32⟩ : BufTy).Contents (Elt Ideal)) (t : (⟨S100000, .f32⟩ : BufTy).Contents (Elt Ideal)) :
    (⟨S100000x10, .f32⟩ : BufTy).Contents (Elt Ideal) :=
  subf (F := Ideal) (φ := .f32) x (broadcastInDim S100000x10 ![0, 1] bcast_S100000x1_S100000x10_0_1 (broadcastInDim S100000x1 ![0] bcast_S100000_S100000x1_0 t))

/-- Each row's sum of exponentials. -/
def hostExpSum (y : (⟨S100000x10, .f32⟩ : BufTy).Contents (Elt Ideal)) : (⟨S100000, .f32⟩ : BufTy).Contents (Elt Ideal) :=
  Host.reduceAdd (F := Ideal) (φ := .f32) (Host.exp (F := Ideal) (φ := .f32) y) (constant (F := Ideal) S_ .f32 0x00000000#32) reducesTo_S100000x10_S100000_d1 h_S_

/-- The shifted matrix minus the logarithm of a per-row number. -/
def hostFinish (y : (⟨S100000x10, .f32⟩ : BufTy).Contents (Elt Ideal)) (s : (⟨S100000, .f32⟩ : BufTy).Contents (Elt Ideal)) :
    (⟨S100000x10, .f32⟩ : BufTy).Contents (Elt Ideal) :=
  subf (F := Ideal) (φ := .f32) y (broadcastInDim S100000x10 ![0, 1] bcast_S100000x1_S100000x10_0_1
    (Host.log (F := Ideal) (φ := .f32) (broadcastInDim S100000x1 ![0] bcast_S100000_S100000x1_0 s)))

/-! ### Stretch A -/

theorem A_v1 (V : Valuation τ sig (Elt Ideal)) (x1 : (⟨S2x1600000, .i32⟩ : BufTy).Contents (Elt Ideal))
    (h_arg1 : V (Proc.devRef .tc main_arg1) = x1) :
    StableHlo.after (opsA (F := Ideal)) V (Proc.devRef .tc main_v1) = val_main_v1 (F := Ideal) x1 := by
  dsimp only [opsA]; after_results_simp
  rw [h_arg1]
  all_goals rfl
theorem A_v3 (V : Valuation τ sig (Elt Ideal)) (x1 : (⟨S2x1600000, .i32⟩ : BufTy).Contents (Elt Ideal))
    (h_arg1 : V (Proc.devRef .tc main_arg1) = x1) :
    StableHlo.after (opsA (F := Ideal)) V (Proc.devRef .tc main_v3) = val_main_v3 (F := Ideal) x1 := by
  dsimp only [opsA]; after_results_simp
  rw [h_arg1]
  all_goals rfl
theorem A_v9 (V : Valuation τ sig (Elt Ideal)) (x1 : (⟨S2x1600000, .i32⟩ : BufTy).Contents (Elt Ideal))
    (h_arg1 : V (Proc.devRef .tc main_arg1) = x1) :
    StableHlo.after (opsA (F := Ideal)) V (Proc.devRef .tc main_v9) = val_main_v9 (F := Ideal) x1 := by
  dsimp only [opsA]; after_results_simp
  rw [h_arg1]
  all_goals rfl
theorem A_v12 (V : Valuation τ sig (Elt Ideal)) (x1 : (⟨S2x1600000, .i32⟩ : BufTy).Contents (Elt Ideal))
    (h_arg1 : V (Proc.devRef .tc main_arg1) = x1) :
    StableHlo.after (opsA (F := Ideal)) V (Proc.devRef .tc main_v12) = val_main_v12 (F := Ideal) x1 := by
  dsimp only [opsA]; after_results_simp
  rw [h_arg1]
  all_goals rfl
theorem A_cst_3 (V : Valuation τ sig (Elt Ideal))
     :
    StableHlo.after (opsA (F := Ideal)) V (Proc.devRef .tc main_cst_3) = val_main_cst_3 (F := Ideal) := by
  dsimp only [opsA]; after_results_simp
  all_goals rfl
theorem A_keep_arg0 (V : Valuation τ sig (Elt Ideal)) : StableHlo.after (opsA (F := Ideal)) V (Proc.devRef .tc main_arg0) = V (Proc.devRef .tc main_arg0) := by
  dsimp only [opsA]; after_results_simp <;> rfl
theorem A_keep_arg2 (V : Valuation τ sig (Elt Ideal)) : StableHlo.after (opsA (F := Ideal)) V (Proc.devRef .tc main_arg2) = V (Proc.devRef .tc main_arg2) := by
  dsimp only [opsA]; after_results_simp <;> rfl
theorem A_keep_arg3 (V : Valuation τ sig (Elt Ideal)) : StableHlo.after (opsA (F := Ideal)) V (Proc.devRef .tc main_arg3) = V (Proc.devRef .tc main_arg3) := by
  dsimp only [opsA]; after_results_simp <;> rfl
theorem A_keep_arg4 (V : Valuation τ sig (Elt Ideal)) : StableHlo.after (opsA (F := Ideal)) V (Proc.devRef .tc main_arg4) = V (Proc.devRef .tc main_arg4) := by
  dsimp only [opsA]; after_results_simp <;> rfl
theorem A_keep_arg5 (V : Valuation τ sig (Elt Ideal)) : StableHlo.after (opsA (F := Ideal)) V (Proc.devRef .tc main_arg5) = V (Proc.devRef .tc main_arg5) := by
  dsimp only [opsA]; after_results_simp <;> rfl
theorem A_keep_arg1 (V : Valuation τ sig (Elt Ideal)) : StableHlo.after (opsA (F := Ideal)) V (Proc.devRef .tc main_arg1) = V (Proc.devRef .tc main_arg1) := by
  dsimp only [opsA]; after_results_simp <;> rfl

/-! ### Stretch B -/

theorem B_v13 (V : Valuation τ sig (Elt Ideal)) (x1 : (⟨S2x1600000, .i32⟩ : BufTy).Contents (Elt Ideal))
    (h_v9 : V (Proc.devRef .tc main_v9) = val_main_v9 (F := Ideal) x1) (h_v12 : V (Proc.devRef .tc main_v12) = val_main_v12 (F := Ideal) x1) (h_cst_3 : V (Proc.devRef .tc main_cst_3) = val_main_cst_3 (F := Ideal)) :
    StableHlo.after (opsB (F := Ideal)) V (Proc.devRef .tc main_v13) = val_main_v13 (F := Ideal) x1 := by
  have e : StableHlo.after (opsB (F := Ideal)) V (Proc.devRef .tc main_v13) = pick (V (Proc.devRef .tc main_v9)) (V (Proc.devRef .tc main_v12)) (V (Proc.devRef .tc main_cst_3)) := by
    dsimp only [opsB]; after_results_simp
    try simp only [Cert.LibHostLine.ofBuf_toBuf]
    all_goals rfl
  rw [e, h_v9, h_v12, h_cst_3]
  all_goals rfl
theorem B_keep_v1 (V : Valuation τ sig (Elt Ideal)) : StableHlo.after (opsB (F := Ideal)) V (Proc.devRef .tc main_v1) = V (Proc.devRef .tc main_v1) := by
  dsimp only [opsB]; after_results_simp <;> rfl
theorem B_keep_v3 (V : Valuation τ sig (Elt Ideal)) : StableHlo.after (opsB (F := Ideal)) V (Proc.devRef .tc main_v3) = V (Proc.devRef .tc main_v3) := by
  dsimp only [opsB]; after_results_simp <;> rfl
theorem B_keep_arg0 (V : Valuation τ sig (Elt Ideal)) : StableHlo.after (opsB (F := Ideal)) V (Proc.devRef .tc main_arg0) = V (Proc.devRef .tc main_arg0) := by
  dsimp only [opsB]; after_results_simp <;> rfl
theorem B_keep_arg2 (V : Valuation τ sig (Elt Ideal)) : StableHlo.after (opsB (F := Ideal)) V (Proc.devRef .tc main_arg2) = V (Proc.devRef .tc main_arg2) := by
  dsimp only [opsB]; after_results_simp <;> rfl
theorem B_keep_arg3 (V : Valuation τ sig (Elt Ideal)) : StableHlo.after (opsB (F := Ideal)) V (Proc.devRef .tc main_arg3) = V (Proc.devRef .tc main_arg3) := by
  dsimp only [opsB]; after_results_simp <;> rfl
theorem B_keep_arg4 (V : Valuation τ sig (Elt Ideal)) : StableHlo.after (opsB (F := Ideal)) V (Proc.devRef .tc main_arg4) = V (Proc.devRef .tc main_arg4) := by
  dsimp only [opsB]; after_results_simp <;> rfl
theorem B_keep_arg5 (V : Valuation τ sig (Elt Ideal)) : StableHlo.after (opsB (F := Ideal)) V (Proc.devRef .tc main_arg5) = V (Proc.devRef .tc main_arg5) := by
  dsimp only [opsB]; after_results_simp <;> rfl
theorem B_keep_arg1 (V : Valuation τ sig (Elt Ideal)) : StableHlo.after (opsB (F := Ideal)) V (Proc.devRef .tc main_arg1) = V (Proc.devRef .tc main_arg1) := by
  dsimp only [opsB]; after_results_simp <;> rfl

/-! ### Stretch C -/

theorem C_v42 (V : Valuation τ sig (Elt Ideal)) (x0 : (⟨S100000x50, .f32⟩ : BufTy).Contents (Elt Ideal)) (x1 : (⟨S2x1600000, .i32⟩ : BufTy).Contents (Elt Ideal))
    (h_arg0 : V (Proc.devRef .tc main_arg0) = x0) (h_v13 : V (Proc.devRef .tc main_v13) = val_main_v13 (F := Ideal) x1) (h_v1 : V (Proc.devRef .tc main_v1) = val_main_v1 (F := Ideal) x1) (h_v3 : V (Proc.devRef .tc main_v3) = val_main_v3 (F := Ideal) x1) :
    StableHlo.after (opsC (F := Ideal)) V (Proc.devRef .tc main_v42) = val_main_v42 (F := Ideal) x0 x1 := by
  dsimp only [opsC]; after_results_simp
  rw [h_arg0, h_v13, h_v1, h_v3]
  all_goals rfl
theorem C_keep_v1 (V : Valuation τ sig (Elt Ideal)) : StableHlo.after (opsC (F := Ideal)) V (Proc.devRef .tc main_v1) = V (Proc.devRef .tc main_v1) := by
  dsimp only [opsC]; after_results_simp <;> rfl
theorem C_keep_v3 (V : Valuation τ sig (Elt Ideal)) : StableHlo.after (opsC (F := Ideal)) V (Proc.devRef .tc main_v3) = V (Proc.devRef .tc main_v3) := by
  dsimp only [opsC]; after_results_simp <;> rfl
theorem C_keep_arg0 (V : Valuation τ sig (Elt Ideal)) : StableHlo.after (opsC (F := Ideal)) V (Proc.devRef .tc main_arg0) = V (Proc.devRef .tc main_arg0) := by
  dsimp only [opsC]; after_results_simp <;> rfl
theorem C_keep_arg2 (V : Valuation τ sig (Elt Ideal)) : StableHlo.after (opsC (F := Ideal)) V (Proc.devRef .tc main_arg2) = V (Proc.devRef .tc main_arg2) := by
  dsimp only [opsC]; after_results_simp <;> rfl
theorem C_keep_arg3 (V : Valuation τ sig (Elt Ideal)) : StableHlo.after (opsC (F := Ideal)) V (Proc.devRef .tc main_arg3) = V (Proc.devRef .tc main_arg3) := by
  dsimp only [opsC]; after_results_simp <;> rfl
theorem C_keep_arg4 (V : Valuation τ sig (Elt Ideal)) : StableHlo.after (opsC (F := Ideal)) V (Proc.devRef .tc main_arg4) = V (Proc.devRef .tc main_arg4) := by
  dsimp only [opsC]; after_results_simp <;> rfl
theorem C_keep_arg5 (V : Valuation τ sig (Elt Ideal)) : StableHlo.after (opsC (F := Ideal)) V (Proc.devRef .tc main_arg5) = V (Proc.devRef .tc main_arg5) := by
  dsimp only [opsC]; after_results_simp <;> rfl
theorem C_keep_arg1 (V : Valuation τ sig (Elt Ideal)) : StableHlo.after (opsC (F := Ideal)) V (Proc.devRef .tc main_arg1) = V (Proc.devRef .tc main_arg1) := by
  dsimp only [opsC]; after_results_simp <;> rfl

/-! ### Stretch D -/

theorem D_v53 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal))
    (h_arg0 : V (Proc.devRef .tc main_arg0) = x0) (h_v42 : V (Proc.devRef .tc main_v42) = val_main_v42 (F := Ideal) x0 x1) (h_arg2 : V (Proc.devRef .tc main_arg2) = x2) (h_arg3 : V (Proc.devRef .tc main_arg3) = x3) :
    StableHlo.after (opsD (F := Ideal)) V (Proc.devRef .tc main_v53) = val_main_v53 (F := Ideal) x0 x1 x2 x3 := by
  dsimp only [opsD]; after_results_simp
  rw [h_arg0, h_v42, h_arg2, h_arg3]
  all_goals rfl
theorem D_keep_v1 (V : Valuation τ sig (Elt Ideal)) : StableHlo.after (opsD (F := Ideal)) V (Proc.devRef .tc main_v1) = V (Proc.devRef .tc main_v1) := by
  dsimp only [opsD]; after_results_simp <;> rfl
theorem D_keep_v3 (V : Valuation τ sig (Elt Ideal)) : StableHlo.after (opsD (F := Ideal)) V (Proc.devRef .tc main_v3) = V (Proc.devRef .tc main_v3) := by
  dsimp only [opsD]; after_results_simp <;> rfl
theorem D_keep_arg4 (V : Valuation τ sig (Elt Ideal)) : StableHlo.after (opsD (F := Ideal)) V (Proc.devRef .tc main_arg4) = V (Proc.devRef .tc main_arg4) := by
  dsimp only [opsD]; after_results_simp <;> rfl
theorem D_keep_arg5 (V : Valuation τ sig (Elt Ideal)) : StableHlo.after (opsD (F := Ideal)) V (Proc.devRef .tc main_arg5) = V (Proc.devRef .tc main_arg5) := by
  dsimp only [opsD]; after_results_simp <;> rfl
theorem D_keep_arg0 (V : Valuation τ sig (Elt Ideal)) : StableHlo.after (opsD (F := Ideal)) V (Proc.devRef .tc main_arg0) = V (Proc.devRef .tc main_arg0) := by
  dsimp only [opsD]; after_results_simp <;> rfl
theorem D_keep_arg1 (V : Valuation τ sig (Elt Ideal)) : StableHlo.after (opsD (F := Ideal)) V (Proc.devRef .tc main_arg1) = V (Proc.devRef .tc main_arg1) := by
  dsimp only [opsD]; after_results_simp <;> rfl
theorem D_keep_arg2 (V : Valuation τ sig (Elt Ideal)) : StableHlo.after (opsD (F := Ideal)) V (Proc.devRef .tc main_arg2) = V (Proc.devRef .tc main_arg2) := by
  dsimp only [opsD]; after_results_simp <;> rfl
theorem D_keep_arg3 (V : Valuation τ sig (Elt Ideal)) : StableHlo.after (opsD (F := Ideal)) V (Proc.devRef .tc main_arg3) = V (Proc.devRef .tc main_arg3) := by
  dsimp only [opsD]; after_results_simp <;> rfl

/-! ### Stretch E -/

theorem E_v59 (V : Valuation τ sig (Elt Ideal)) (x1 : (⟨S2x1600000, .i32⟩ : BufTy).Contents (Elt Ideal))
    (h_v1 : V (Proc.devRef .tc main_v1) = val_main_v1 (F := Ideal) x1) :
    StableHlo.after (opsE (F := Ideal)) V (Proc.devRef .tc main_v59) = val_main_v59 (F := Ideal) x1 := by
  dsimp only [opsE]; after_results_simp
  rw [h_v1]
  all_goals rfl
theorem E_v62 (V : Valuation τ sig (Elt Ideal)) (x1 : (⟨S2x1600000, .i32⟩ : BufTy).Contents (Elt Ideal))
    (h_v1 : V (Proc.devRef .tc main_v1) = val_main_v1 (F := Ideal) x1) :
    StableHlo.after (opsE (F := Ideal)) V (Proc.devRef .tc main_v62) = val_main_v62 (F := Ideal) x1 := by
  dsimp only [opsE]; after_results_simp
  rw [h_v1]
  all_goals rfl
theorem E_cst_14 (V : Valuation τ sig (Elt Ideal))
     :
    StableHlo.after (opsE (F := Ideal)) V (Proc.devRef .tc main_cst_14) = val_main_cst_14 (F := Ideal) := by
  dsimp only [opsE]; after_results_simp
  all_goals rfl
theorem E_keep_v1 (V : Valuation τ sig (Elt Ideal)) : StableHlo.after (opsE (F := Ideal)) V (Proc.devRef .tc main_v1) = V (Proc.devRef .tc main_v1) := by
  dsimp only [opsE]; after_results_simp <;> rfl
theorem E_keep_v3 (V : Valuation τ sig (Elt Ideal)) : StableHlo.after (opsE (F := Ideal)) V (Proc.devRef .tc main_v3) = V (Proc.devRef .tc main_v3) := by
  dsimp only [opsE]; after_results_simp <;> rfl
theorem E_keep_v53 (V : Valuation τ sig (Elt Ideal)) : StableHlo.after (opsE (F := Ideal)) V (Proc.devRef .tc main_v53) = V (Proc.devRef .tc main_v53) := by
  dsimp only [opsE]; after_results_simp <;> rfl
theorem E_keep_arg4 (V : Valuation τ sig (Elt Ideal)) : StableHlo.after (opsE (F := Ideal)) V (Proc.devRef .tc main_arg4) = V (Proc.devRef .tc main_arg4) := by
  dsimp only [opsE]; after_results_simp <;> rfl
theorem E_keep_arg5 (V : Valuation τ sig (Elt Ideal)) : StableHlo.after (opsE (F := Ideal)) V (Proc.devRef .tc main_arg5) = V (Proc.devRef .tc main_arg5) := by
  dsimp only [opsE]; after_results_simp <;> rfl
theorem E_keep_arg0 (V : Valuation τ sig (Elt Ideal)) : StableHlo.after (opsE (F := Ideal)) V (Proc.devRef .tc main_arg0) = V (Proc.devRef .tc main_arg0) := by
  dsimp only [opsE]; after_results_simp <;> rfl
theorem E_keep_arg1 (V : Valuation τ sig (Elt Ideal)) : StableHlo.after (opsE (F := Ideal)) V (Proc.devRef .tc main_arg1) = V (Proc.devRef .tc main_arg1) := by
  dsimp only [opsE]; after_results_simp <;> rfl
theorem E_keep_arg2 (V : Valuation τ sig (Elt Ideal)) : StableHlo.after (opsE (F := Ideal)) V (Proc.devRef .tc main_arg2) = V (Proc.devRef .tc main_arg2) := by
  dsimp only [opsE]; after_results_simp <;> rfl
theorem E_keep_arg3 (V : Valuation τ sig (Elt Ideal)) : StableHlo.after (opsE (F := Ideal)) V (Proc.devRef .tc main_arg3) = V (Proc.devRef .tc main_arg3) := by
  dsimp only [opsE]; after_results_simp <;> rfl

/-! ### Stretch F -/

theorem F_v63 (V : Valuation τ sig (Elt Ideal)) (x1 : (⟨S2x1600000, .i32⟩ : BufTy).Contents (Elt Ideal))
    (h_v59 : V (Proc.devRef .tc main_v59) = val_main_v59 (F := Ideal) x1) (h_v62 : V (Proc.devRef .tc main_v62) = val_main_v62 (F := Ideal) x1) (h_cst_14 : V (Proc.devRef .tc main_cst_14) = val_main_cst_14 (F := Ideal)) :
    StableHlo.after (opsF (F := Ideal)) V (Proc.devRef .tc main_v63) = val_main_v63 (F := Ideal) x1 := by
  have e : StableHlo.after (opsF (F := Ideal)) V (Proc.devRef .tc main_v63) = pick (V (Proc.devRef .tc main_v59)) (V (Proc.devRef .tc main_v62)) (V (Proc.devRef .tc main_cst_14)) := by
    dsimp only [opsF]; after_results_simp
    try simp only [Cert.LibHostLine.ofBuf_toBuf]
    all_goals rfl
  rw [e, h_v59, h_v62, h_cst_14]
  all_goals rfl
theorem F_keep_v1 (V : Valuation τ sig (Elt Ideal)) : StableHlo.after (opsF (F := Ideal)) V (Proc.devRef .tc main_v1) = V (Proc.devRef .tc main_v1) := by
  dsimp only [opsF]; after_results_simp <;> rfl
theorem F_keep_v3 (V : Valuation τ sig (Elt Ideal)) : StableHlo.after (opsF (F := Ideal)) V (Proc.devRef .tc main_v3) = V (Proc.devRef .tc main_v3) := by
  dsimp only [opsF]; after_results_simp <;> rfl
theorem F_keep_v53 (V : Valuation τ sig (Elt Ideal)) : StableHlo.after (opsF (F := Ideal)) V (Proc.devRef .tc main_v53) = V (Proc.devRef .tc main_v53) := by
  dsimp only [opsF]; after_results_simp <;> rfl
theorem F_keep_arg4 (V : Valuation τ sig (Elt Ideal)) : StableHlo.after (opsF (F := Ideal)) V (Proc.devRef .tc main_arg4) = V (Proc.devRef .tc main_arg4) := by
  dsimp only [opsF]; after_results_simp <;> rfl
theorem F_keep_arg5 (V : Valuation τ sig (Elt Ideal)) : StableHlo.after (opsF (F := Ideal)) V (Proc.devRef .tc main_arg5) = V (Proc.devRef .tc main_arg5) := by
  dsimp only [opsF]; after_results_simp <;> rfl
theorem F_keep_arg0 (V : Valuation τ sig (Elt Ideal)) : StableHlo.after (opsF (F := Ideal)) V (Proc.devRef .tc main_arg0) = V (Proc.devRef .tc main_arg0) := by
  dsimp only [opsF]; after_results_simp <;> rfl
theorem F_keep_arg1 (V : Valuation τ sig (Elt Ideal)) : StableHlo.after (opsF (F := Ideal)) V (Proc.devRef .tc main_arg1) = V (Proc.devRef .tc main_arg1) := by
  dsimp only [opsF]; after_results_simp <;> rfl
theorem F_keep_arg2 (V : Valuation τ sig (Elt Ideal)) : StableHlo.after (opsF (F := Ideal)) V (Proc.devRef .tc main_arg2) = V (Proc.devRef .tc main_arg2) := by
  dsimp only [opsF]; after_results_simp <;> rfl
theorem F_keep_arg3 (V : Valuation τ sig (Elt Ideal)) : StableHlo.after (opsF (F := Ideal)) V (Proc.devRef .tc main_arg3) = V (Proc.devRef .tc main_arg3) := by
  dsimp only [opsF]; after_results_simp <;> rfl

/-! ### Stretch G -/

theorem G_v92 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal))
    (h_v53 : V (Proc.devRef .tc main_v53) = val_main_v53 (F := Ideal) x0 x1 x2 x3) (h_v63 : V (Proc.devRef .tc main_v63) = val_main_v63 (F := Ideal) x1) (h_v1 : V (Proc.devRef .tc main_v1) = val_main_v1 (F := Ideal) x1) (h_v3 : V (Proc.devRef .tc main_v3) = val_main_v3 (F := Ideal) x1) :
    StableHlo.after (opsG (F := Ideal)) V (Proc.devRef .tc main_v92) = val_main_v92 (F := Ideal) x0 x1 x2 x3 := by
  dsimp only [opsG]; after_results_simp
  rw [h_v53, h_v63, h_v1, h_v3]
  all_goals rfl
theorem G_keep_v53 (V : Valuation τ sig (Elt Ideal)) : StableHlo.after (opsG (F := Ideal)) V (Proc.devRef .tc main_v53) = V (Proc.devRef .tc main_v53) := by
  dsimp only [opsG]; after_results_simp <;> rfl
theorem G_keep_arg4 (V : Valuation τ sig (Elt Ideal)) : StableHlo.after (opsG (F := Ideal)) V (Proc.devRef .tc main_arg4) = V (Proc.devRef .tc main_arg4) := by
  dsimp only [opsG]; after_results_simp <;> rfl
theorem G_keep_arg5 (V : Valuation τ sig (Elt Ideal)) : StableHlo.after (opsG (F := Ideal)) V (Proc.devRef .tc main_arg5) = V (Proc.devRef .tc main_arg5) := by
  dsimp only [opsG]; after_results_simp <;> rfl
theorem G_keep_arg0 (V : Valuation τ sig (Elt Ideal)) : StableHlo.after (opsG (F := Ideal)) V (Proc.devRef .tc main_arg0) = V (Proc.devRef .tc main_arg0) := by
  dsimp only [opsG]; after_results_simp <;> rfl
theorem G_keep_arg1 (V : Valuation τ sig (Elt Ideal)) : StableHlo.after (opsG (F := Ideal)) V (Proc.devRef .tc main_arg1) = V (Proc.devRef .tc main_arg1) := by
  dsimp only [opsG]; after_results_simp <;> rfl
theorem G_keep_arg2 (V : Valuation τ sig (Elt Ideal)) : StableHlo.after (opsG (F := Ideal)) V (Proc.devRef .tc main_arg2) = V (Proc.devRef .tc main_arg2) := by
  dsimp only [opsG]; after_results_simp <;> rfl
theorem G_keep_arg3 (V : Valuation τ sig (Elt Ideal)) : StableHlo.after (opsG (F := Ideal)) V (Proc.devRef .tc main_arg3) = V (Proc.devRef .tc main_arg3) := by
  dsimp only [opsG]; after_results_simp <;> rfl

/-! ### Stretch H -/

theorem H_v102 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal)) (x4 : (⟨S2x32x10, .f32⟩ : BufTy).Contents (Elt Ideal)) (x5 : (⟨S10, .f32⟩ : BufTy).Contents (Elt Ideal))
    (h_v53 : V (Proc.devRef .tc main_v53) = val_main_v53 (F := Ideal) x0 x1 x2 x3) (h_v92 : V (Proc.devRef .tc main_v92) = val_main_v92 (F := Ideal) x0 x1 x2 x3) (h_arg4 : V (Proc.devRef .tc main_arg4) = x4) (h_arg5 : V (Proc.devRef .tc main_arg5) = x5) :
    StableHlo.after (opsH (F := Ideal)) V (Proc.devRef .tc main_v102) = val_main_v102 (F := Ideal) x0 x1 x2 x3 x4 x5 := by
  dsimp only [opsH]; after_results_simp
  rw [h_v53, h_v92, h_arg4, h_arg5]
  all_goals rfl
theorem H_keep_arg0 (V : Valuation τ sig (Elt Ideal)) : StableHlo.after (opsH (F := Ideal)) V (Proc.devRef .tc main_arg0) = V (Proc.devRef .tc main_arg0) := by
  dsimp only [opsH]; after_results_simp <;> rfl
theorem H_keep_arg1 (V : Valuation τ sig (Elt Ideal)) : StableHlo.after (opsH (F := Ideal)) V (Proc.devRef .tc main_arg1) = V (Proc.devRef .tc main_arg1) := by
  dsimp only [opsH]; after_results_simp <;> rfl
theorem H_keep_arg2 (V : Valuation τ sig (Elt Ideal)) : StableHlo.after (opsH (F := Ideal)) V (Proc.devRef .tc main_arg2) = V (Proc.devRef .tc main_arg2) := by
  dsimp only [opsH]; after_results_simp <;> rfl
theorem H_keep_arg3 (V : Valuation τ sig (Elt Ideal)) : StableHlo.after (opsH (F := Ideal)) V (Proc.devRef .tc main_arg3) = V (Proc.devRef .tc main_arg3) := by
  dsimp only [opsH]; after_results_simp <;> rfl
theorem H_keep_arg4 (V : Valuation τ sig (Elt Ideal)) : StableHlo.after (opsH (F := Ideal)) V (Proc.devRef .tc main_arg4) = V (Proc.devRef .tc main_arg4) := by
  dsimp only [opsH]; after_results_simp <;> rfl
theorem H_keep_arg5 (V : Valuation τ sig (Elt Ideal)) : StableHlo.after (opsH (F := Ideal)) V (Proc.devRef .tc main_arg5) = V (Proc.devRef .tc main_arg5) := by
  dsimp only [opsH]; after_results_simp <;> rfl

/-! ### Stretch I -/

theorem I_call3_v2 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal)) (x4 : (⟨S2x32x10, .f32⟩ : BufTy).Contents (Elt Ideal)) (x5 : (⟨S10, .f32⟩ : BufTy).Contents (Elt Ideal))
    (h_v102 : V (Proc.devRef .tc main_v102) = val_main_v102 (F := Ideal) x0 x1 x2 x3 x4 x5) :
    StableHlo.after (opsI (F := Ideal)) V (Proc.devRef .tc main_call3_v2) = val_main_call3_v2 (F := Ideal) x0 x1 x2 x3 x4 x5 := by
  have e : StableHlo.after (opsI (F := Ideal)) V (Proc.devRef .tc main_call3_v2) = hostTop (V (Proc.devRef .tc main_v102)) := by
    dsimp only [opsI]; after_results_simp
    try simp only [Cert.LibHostLine.ofBuf_toBuf]
    all_goals rfl
  rw [e, h_v102]
  all_goals rfl
theorem I_keep_v102 (V : Valuation τ sig (Elt Ideal)) : StableHlo.after (opsI (F := Ideal)) V (Proc.devRef .tc main_v102) = V (Proc.devRef .tc main_v102) := by
  dsimp only [opsI]; after_results_simp <;> rfl
theorem I_keep_arg0 (V : Valuation τ sig (Elt Ideal)) : StableHlo.after (opsI (F := Ideal)) V (Proc.devRef .tc main_arg0) = V (Proc.devRef .tc main_arg0) := by
  dsimp only [opsI]; after_results_simp <;> rfl
theorem I_keep_arg1 (V : Valuation τ sig (Elt Ideal)) : StableHlo.after (opsI (F := Ideal)) V (Proc.devRef .tc main_arg1) = V (Proc.devRef .tc main_arg1) := by
  dsimp only [opsI]; after_results_simp <;> rfl
theorem I_keep_arg2 (V : Valuation τ sig (Elt Ideal)) : StableHlo.after (opsI (F := Ideal)) V (Proc.devRef .tc main_arg2) = V (Proc.devRef .tc main_arg2) := by
  dsimp only [opsI]; after_results_simp <;> rfl
theorem I_keep_arg3 (V : Valuation τ sig (Elt Ideal)) : StableHlo.after (opsI (F := Ideal)) V (Proc.devRef .tc main_arg3) = V (Proc.devRef .tc main_arg3) := by
  dsimp only [opsI]; after_results_simp <;> rfl
theorem I_keep_arg4 (V : Valuation τ sig (Elt Ideal)) : StableHlo.after (opsI (F := Ideal)) V (Proc.devRef .tc main_arg4) = V (Proc.devRef .tc main_arg4) := by
  dsimp only [opsI]; after_results_simp <;> rfl
theorem I_keep_arg5 (V : Valuation τ sig (Elt Ideal)) : StableHlo.after (opsI (F := Ideal)) V (Proc.devRef .tc main_arg5) = V (Proc.devRef .tc main_arg5) := by
  dsimp only [opsI]; after_results_simp <;> rfl

/-! ### Stretch J -/

theorem J_call3_v5 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal)) (x4 : (⟨S2x32x10, .f32⟩ : BufTy).Contents (Elt Ideal)) (x5 : (⟨S10, .f32⟩ : BufTy).Contents (Elt Ideal))
    (h_v102 : V (Proc.devRef .tc main_v102) = val_main_v102 (F := Ideal) x0 x1 x2 x3 x4 x5) (h_call3_v2 : V (Proc.devRef .tc main_call3_v2) = val_main_call3_v2 (F := Ideal) x0 x1 x2 x3 x4 x5) :
    StableHlo.after (opsJ (F := Ideal)) V (Proc.devRef .tc main_call3_v5) = val_main_call3_v5 (F := Ideal) x0 x1 x2 x3 x4 x5 := by
  have e : StableHlo.after (opsJ (F := Ideal)) V (Proc.devRef .tc main_call3_v5) = hostShift (V (Proc.devRef .tc main_v102)) (V (Proc.devRef .tc main_call3_v2)) := by
    dsimp only [opsJ]; after_results_simp
    try simp only [Cert.LibHostLine.ofBuf_toBuf]
    all_goals rfl
  rw [e, h_v102, h_call3_v2]
  all_goals rfl
theorem J_keep_arg0 (V : Valuation τ sig (Elt Ideal)) : StableHlo.after (opsJ (F := Ideal)) V (Proc.devRef .tc main_arg0) = V (Proc.devRef .tc main_arg0) := by
  dsimp only [opsJ]; after_results_simp <;> rfl
theorem J_keep_arg1 (V : Valuation τ sig (Elt Ideal)) : StableHlo.after (opsJ (F := Ideal)) V (Proc.devRef .tc main_arg1) = V (Proc.devRef .tc main_arg1) := by
  dsimp only [opsJ]; after_results_simp <;> rfl
theorem J_keep_arg2 (V : Valuation τ sig (Elt Ideal)) : StableHlo.after (opsJ (F := Ideal)) V (Proc.devRef .tc main_arg2) = V (Proc.devRef .tc main_arg2) := by
  dsimp only [opsJ]; after_results_simp <;> rfl
theorem J_keep_arg3 (V : Valuation τ sig (Elt Ideal)) : StableHlo.after (opsJ (F := Ideal)) V (Proc.devRef .tc main_arg3) = V (Proc.devRef .tc main_arg3) := by
  dsimp only [opsJ]; after_results_simp <;> rfl
theorem J_keep_arg4 (V : Valuation τ sig (Elt Ideal)) : StableHlo.after (opsJ (F := Ideal)) V (Proc.devRef .tc main_arg4) = V (Proc.devRef .tc main_arg4) := by
  dsimp only [opsJ]; after_results_simp <;> rfl
theorem J_keep_arg5 (V : Valuation τ sig (Elt Ideal)) : StableHlo.after (opsJ (F := Ideal)) V (Proc.devRef .tc main_arg5) = V (Proc.devRef .tc main_arg5) := by
  dsimp only [opsJ]; after_results_simp <;> rfl

/-! ### Stretch K -/

theorem K_call3_v7 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal)) (x4 : (⟨S2x32x10, .f32⟩ : BufTy).Contents (Elt Ideal)) (x5 : (⟨S10, .f32⟩ : BufTy).Contents (Elt Ideal))
    (h_call3_v5 : V (Proc.devRef .tc main_call3_v5) = val_main_call3_v5 (F := Ideal) x0 x1 x2 x3 x4 x5) :
    StableHlo.after (opsK (F := Ideal)) V (Proc.devRef .tc main_call3_v7) = val_main_call3_v7 (F := Ideal) x0 x1 x2 x3 x4 x5 := by
  have e : StableHlo.after (opsK (F := Ideal)) V (Proc.devRef .tc main_call3_v7) = hostExpSum (V (Proc.devRef .tc main_call3_v5)) := by
    dsimp only [opsK]; after_results_simp
    try simp only [Cert.LibHostLine.ofBuf_toBuf]
    all_goals rfl
  rw [e, h_call3_v5]
  all_goals rfl
theorem K_keep_call3_v5 (V : Valuation τ sig (Elt Ideal)) : StableHlo.after (opsK (F := Ideal)) V (Proc.devRef .tc main_call3_v5) = V (Proc.devRef .tc main_call3_v5) := by
  dsimp only [opsK]; after_results_simp <;> rfl
theorem K_keep_arg0 (V : Valuation τ sig (Elt Ideal)) : StableHlo.after (opsK (F := Ideal)) V (Proc.devRef .tc main_arg0) = V (Proc.devRef .tc main_arg0) := by
  dsimp only [opsK]; after_results_simp <;> rfl
theorem K_keep_arg1 (V : Valuation τ sig (Elt Ideal)) : StableHlo.after (opsK (F := Ideal)) V (Proc.devRef .tc main_arg1) = V (Proc.devRef .tc main_arg1) := by
  dsimp only [opsK]; after_results_simp <;> rfl
theorem K_keep_arg2 (V : Valuation τ sig (Elt Ideal)) : StableHlo.after (opsK (F := Ideal)) V (Proc.devRef .tc main_arg2) = V (Proc.devRef .tc main_arg2) := by
  dsimp only [opsK]; after_results_simp <;> rfl
theorem K_keep_arg3 (V : Valuation τ sig (Elt Ideal)) : StableHlo.after (opsK (F := Ideal)) V (Proc.devRef .tc main_arg3) = V (Proc.devRef .tc main_arg3) := by
  dsimp only [opsK]; after_results_simp <;> rfl
theorem K_keep_arg4 (V : Valuation τ sig (Elt Ideal)) : StableHlo.after (opsK (F := Ideal)) V (Proc.devRef .tc main_arg4) = V (Proc.devRef .tc main_arg4) := by
  dsimp only [opsK]; after_results_simp <;> rfl
theorem K_keep_arg5 (V : Valuation τ sig (Elt Ideal)) : StableHlo.after (opsK (F := Ideal)) V (Proc.devRef .tc main_arg5) = V (Proc.devRef .tc main_arg5) := by
  dsimp only [opsK]; after_results_simp <;> rfl

/-! ### Stretch L -/

theorem L_v103 (V : Valuation τ sig (Elt Ideal)) (x0 : (⟨S100000x50, .f32⟩ : BufTy).Contents (Elt Ideal)) (x1 : (⟨S2x1600000, .i32⟩ : BufTy).Contents (Elt Ideal)) (x2 : (⟨S2x50x32, .f32⟩ : BufTy).Contents (Elt Ideal)) (x3 : (⟨S32, .f32⟩ : BufTy).Contents (Elt Ideal)) (x4 : (⟨S2x32x10, .f32⟩ : BufTy).Contents (Elt Ideal)) (x5 : (⟨S10, .f32⟩ : BufTy).Contents (Elt Ideal))
    (h_call3_v5 : V (Proc.devRef .tc main_call3_v5) = val_main_call3_v5 (F := Ideal) x0 x1 x2 x3 x4 x5) (h_call3_v7 : V (Proc.devRef .tc main_call3_v7) = val_main_call3_v7 (F := Ideal) x0 x1 x2 x3 x4 x5) :
    StableHlo.after (opsL (F := Ideal)) V (Proc.devRef .tc main_v103) = val_main_v103 (F := Ideal) x0 x1 x2 x3 x4 x5 := by
  have e : StableHlo.after (opsL (F := Ideal)) V (Proc.devRef .tc main_v103) = hostFinish (V (Proc.devRef .tc main_call3_v5)) (V (Proc.devRef .tc main_call3_v7)) := by
    dsimp only [opsL]; after_results_simp
    try simp only [Cert.LibHostLine.ofBuf_toBuf]
    all_goals rfl
  rw [e, h_call3_v5, h_call3_v7]
  all_goals rfl
theorem L_keep_arg0 (V : Valuation τ sig (Elt Ideal)) : StableHlo.after (opsL (F := Ideal)) V (Proc.devRef .tc main_arg0) = V (Proc.devRef .tc main_arg0) := by
  dsimp only [opsL]; after_results_simp <;> rfl
theorem L_keep_arg1 (V : Valuation τ sig (Elt Ideal)) : StableHlo.after (opsL (F := Ideal)) V (Proc.devRef .tc main_arg1) = V (Proc.devRef .tc main_arg1) := by
  dsimp only [opsL]; after_results_simp <;> rfl
theorem L_keep_arg2 (V : Valuation τ sig (Elt Ideal)) : StableHlo.after (opsL (F := Ideal)) V (Proc.devRef .tc main_arg2) = V (Proc.devRef .tc main_arg2) := by
  dsimp only [opsL]; after_results_simp <;> rfl
theorem L_keep_arg3 (V : Valuation τ sig (Elt Ideal)) : StableHlo.after (opsL (F := Ideal)) V (Proc.devRef .tc main_arg3) = V (Proc.devRef .tc main_arg3) := by
  dsimp only [opsL]; after_results_simp <;> rfl
theorem L_keep_arg4 (V : Valuation τ sig (Elt Ideal)) : StableHlo.after (opsL (F := Ideal)) V (Proc.devRef .tc main_arg4) = V (Proc.devRef .tc main_arg4) := by
  dsimp only [opsL]; after_results_simp <;> rfl
theorem L_keep_arg5 (V : Valuation τ sig (Elt Ideal)) : StableHlo.after (opsL (F := Ideal)) V (Proc.devRef .tc main_arg5) = V (Proc.devRef .tc main_arg5) := by
  dsimp only [opsL]; after_results_simp <;> rfl

/-! ## The whole line -/

/-- From any buffer contents `W`, the line leaves in the result buffer the last stage of `W`'s contents of the arguments. -/
theorem result_eq (W : Valuation τ sig (Elt Ideal)) :
    StableHlo.after (ops (F := Ideal)) W (Proc.devRef .tc main_v103)
      = val_main_v103 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_ops]
  have hA_v1 : (StableHlo.after (opsA (F := Ideal)) W) (Proc.devRef .tc main_v1) = val_main_v1 (F := Ideal) (W (Proc.devRef .tc main_arg1)) :=
    A_v1 W (W (Proc.devRef .tc main_arg1)) rfl
  have hA_v3 : (StableHlo.after (opsA (F := Ideal)) W) (Proc.devRef .tc main_v3) = val_main_v3 (F := Ideal) (W (Proc.devRef .tc main_arg1)) :=
    A_v3 W (W (Proc.devRef .tc main_arg1)) rfl
  have hA_v9 : (StableHlo.after (opsA (F := Ideal)) W) (Proc.devRef .tc main_v9) = val_main_v9 (F := Ideal) (W (Proc.devRef .tc main_arg1)) :=
    A_v9 W (W (Proc.devRef .tc main_arg1)) rfl
  have hA_v12 : (StableHlo.after (opsA (F := Ideal)) W) (Proc.devRef .tc main_v12) = val_main_v12 (F := Ideal) (W (Proc.devRef .tc main_arg1)) :=
    A_v12 W (W (Proc.devRef .tc main_arg1)) rfl
  have hA_cst_3 : (StableHlo.after (opsA (F := Ideal)) W) (Proc.devRef .tc main_cst_3) = val_main_cst_3 (F := Ideal) :=
    A_cst_3 W
  have hA_arg0 : (StableHlo.after (opsA (F := Ideal)) W) (Proc.devRef .tc main_arg0) = (W (Proc.devRef .tc main_arg0)) := A_keep_arg0 W
  have hA_arg2 : (StableHlo.after (opsA (F := Ideal)) W) (Proc.devRef .tc main_arg2) = (W (Proc.devRef .tc main_arg2)) := A_keep_arg2 W
  have hA_arg3 : (StableHlo.after (opsA (F := Ideal)) W) (Proc.devRef .tc main_arg3) = (W (Proc.devRef .tc main_arg3)) := A_keep_arg3 W
  have hA_arg4 : (StableHlo.after (opsA (F := Ideal)) W) (Proc.devRef .tc main_arg4) = (W (Proc.devRef .tc main_arg4)) := A_keep_arg4 W
  have hA_arg5 : (StableHlo.after (opsA (F := Ideal)) W) (Proc.devRef .tc main_arg5) = (W (Proc.devRef .tc main_arg5)) := A_keep_arg5 W
  have hB_v13 : (StableHlo.after (opsB (F := Ideal)) (StableHlo.after (opsA (F := Ideal)) W)) (Proc.devRef .tc main_v13) = val_main_v13 (F := Ideal) (W (Proc.devRef .tc main_arg1)) :=
    B_v13 (StableHlo.after (opsA (F := Ideal)) W) (W (Proc.devRef .tc main_arg1)) hA_v9 hA_v12 hA_cst_3
  have hB_v1 : (StableHlo.after (opsB (F := Ideal)) (StableHlo.after (opsA (F := Ideal)) W)) (Proc.devRef .tc main_v1) = val_main_v1 (F := Ideal) (W (Proc.devRef .tc main_arg1)) := (B_keep_v1 (StableHlo.after (opsA (F := Ideal)) W)).trans hA_v1
  have hB_v3 : (StableHlo.after (opsB (F := Ideal)) (StableHlo.after (opsA (F := Ideal)) W)) (Proc.devRef .tc main_v3) = val_main_v3 (F := Ideal) (W (Proc.devRef .tc main_arg1)) := (B_keep_v3 (StableHlo.after (opsA (F := Ideal)) W)).trans hA_v3
  have hB_arg0 : (StableHlo.after (opsB (F := Ideal)) (StableHlo.after (opsA (F := Ideal)) W)) (Proc.devRef .tc main_arg0) = (W (Proc.devRef .tc main_arg0)) := (B_keep_arg0 (StableHlo.after (opsA (F := Ideal)) W)).trans hA_arg0
  have hB_arg2 : (StableHlo.after (opsB (F := Ideal)) (StableHlo.after (opsA (F := Ideal)) W)) (Proc.devRef .tc main_arg2) = (W (Proc.devRef .tc main_arg2)) := (B_keep_arg2 (StableHlo.after (opsA (F := Ideal)) W)).trans hA_arg2
  have hB_arg3 : (StableHlo.after (opsB (F := Ideal)) (StableHlo.after (opsA (F := Ideal)) W)) (Proc.devRef .tc main_arg3) = (W (Proc.devRef .tc main_arg3)) := (B_keep_arg3 (StableHlo.after (opsA (F := Ideal)) W)).trans hA_arg3
  have hB_arg4 : (StableHlo.after (opsB (F := Ideal)) (StableHlo.after (opsA (F := Ideal)) W)) (Proc.devRef .tc main_arg4) = (W (Proc.devRef .tc main_arg4)) := (B_keep_arg4 (StableHlo.after (opsA (F := Ideal)) W)).trans hA_arg4
  have hB_arg5 : (StableHlo.after (opsB (F := Ideal)) (StableHlo.after (opsA (F := Ideal)) W)) (Proc.devRef .tc main_arg5) = (W (Proc.devRef .tc main_arg5)) := (B_keep_arg5 (StableHlo.after (opsA (F := Ideal)) W)).trans hA_arg5
  have hC_v42 : (StableHlo.after (opsC (F := Ideal)) (StableHlo.after (opsB (F := Ideal)) (StableHlo.after (opsA (F := Ideal)) W))) (Proc.devRef .tc main_v42) = val_main_v42 (F := Ideal) (W (Proc.devRef .tc main_arg0)) (W (Proc.devRef .tc main_arg1)) :=
    C_v42 (StableHlo.after (opsB (F := Ideal)) (StableHlo.after (opsA (F := Ideal)) W)) (W (Proc.devRef .tc main_arg0)) (W (Proc.devRef .tc main_arg1)) hB_arg0 hB_v13 hB_v1 hB_v3
  have hC_v1 : (StableHlo.after (opsC (F := Ideal)) (StableHlo.after (opsB (F := Ideal)) (StableHlo.after (opsA (F := Ideal)) W))) (Proc.devRef .tc main_v1) = val_main_v1 (F := Ideal) (W (Proc.devRef .tc main_arg1)) := (C_keep_v1 (StableHlo.after (opsB (F := Ideal)) (StableHlo.after (opsA (F := Ideal)) W))).trans hB_v1
  have hC_v3 : (StableHlo.after (opsC (F := Ideal)) (StableHlo.after (opsB (F := Ideal)) (StableHlo.after (opsA (F := Ideal)) W))) (Proc.devRef .tc main_v3) = val_main_v3 (F := Ideal) (W (Proc.devRef .tc main_arg1)) := (C_keep_v3 (StableHlo.after (opsB (F := Ideal)) (StableHlo.after (opsA (F := Ideal)) W))).trans hB_v3
  have hC_arg0 : (StableHlo.after (opsC (F := Ideal)) (StableHlo.after (opsB (F := Ideal)) (StableHlo.after (opsA (F := Ideal)) W))) (Proc.devRef .tc main_arg0) = (W (Proc.devRef .tc main_arg0)) := (C_keep_arg0 (StableHlo.after (opsB (F := Ideal)) (StableHlo.after (opsA (F := Ideal)) W))).trans hB_arg0
  have hC_arg2 : (StableHlo.after (opsC (F := Ideal)) (StableHlo.after (opsB (F := Ideal)) (StableHlo.after (opsA (F := Ideal)) W))) (Proc.devRef .tc main_arg2) = (W (Proc.devRef .tc main_arg2)) := (C_keep_arg2 (StableHlo.after (opsB (F := Ideal)) (StableHlo.after (opsA (F := Ideal)) W))).trans hB_arg2
  have hC_arg3 : (StableHlo.after (opsC (F := Ideal)) (StableHlo.after (opsB (F := Ideal)) (StableHlo.after (opsA (F := Ideal)) W))) (Proc.devRef .tc main_arg3) = (W (Proc.devRef .tc main_arg3)) := (C_keep_arg3 (StableHlo.after (opsB (F := Ideal)) (StableHlo.after (opsA (F := Ideal)) W))).trans hB_arg3
  have hC_arg4 : (StableHlo.after (opsC (F := Ideal)) (StableHlo.after (opsB (F := Ideal)) (StableHlo.after (opsA (F := Ideal)) W))) (Proc.devRef .tc main_arg4) = (W (Proc.devRef .tc main_arg4)) := (C_keep_arg4 (StableHlo.after (opsB (F := Ideal)) (StableHlo.after (opsA (F := Ideal)) W))).trans hB_arg4
  have hC_arg5 : (StableHlo.after (opsC (F := Ideal)) (StableHlo.after (opsB (F := Ideal)) (StableHlo.after (opsA (F := Ideal)) W))) (Proc.devRef .tc main_arg5) = (W (Proc.devRef .tc main_arg5)) := (C_keep_arg5 (StableHlo.after (opsB (F := Ideal)) (StableHlo.after (opsA (F := Ideal)) W))).trans hB_arg5
  have hD_v53 : (StableHlo.after (opsD (F := Ideal)) (StableHlo.after (opsC (F := Ideal)) (StableHlo.after (opsB (F := Ideal)) (StableHlo.after (opsA (F := Ideal)) W)))) (Proc.devRef .tc main_v53) = val_main_v53 (F := Ideal) (W (Proc.devRef .tc main_arg0)) (W (Proc.devRef .tc main_arg1)) (W (Proc.devRef .tc main_arg2)) (W (Proc.devRef .tc main_arg3)) :=
    D_v53 (StableHlo.after (opsC (F := Ideal)) (StableHlo.after (opsB (F := Ideal)) (StableHlo.after (opsA (F := Ideal)) W))) (W (Proc.devRef .tc main_arg0)) (W (Proc.devRef .tc main_arg1)) (W (Proc.devRef .tc main_arg2)) (W (Proc.devRef .tc main_arg3)) hC_arg0 hC_v42 hC_arg2 hC_arg3
  have hD_v1 : (StableHlo.after (opsD (F := Ideal)) (StableHlo.after (opsC (F := Ideal)) (StableHlo.after (opsB (F := Ideal)) (StableHlo.after (opsA (F := Ideal)) W)))) (Proc.devRef .tc main_v1) = val_main_v1 (F := Ideal) (W (Proc.devRef .tc main_arg1)) := (D_keep_v1 (StableHlo.after (opsC (F := Ideal)) (StableHlo.after (opsB (F := Ideal)) (StableHlo.after (opsA (F := Ideal)) W)))).trans hC_v1
  have hD_v3 : (StableHlo.after (opsD (F := Ideal)) (StableHlo.after (opsC (F := Ideal)) (StableHlo.after (opsB (F := Ideal)) (StableHlo.after (opsA (F := Ideal)) W)))) (Proc.devRef .tc main_v3) = val_main_v3 (F := Ideal) (W (Proc.devRef .tc main_arg1)) := (D_keep_v3 (StableHlo.after (opsC (F := Ideal)) (StableHlo.after (opsB (F := Ideal)) (StableHlo.after (opsA (F := Ideal)) W)))).trans hC_v3
  have hD_arg4 : (StableHlo.after (opsD (F := Ideal)) (StableHlo.after (opsC (F := Ideal)) (StableHlo.after (opsB (F := Ideal)) (StableHlo.after (opsA (F := Ideal)) W)))) (Proc.devRef .tc main_arg4) = (W (Proc.devRef .tc main_arg4)) := (D_keep_arg4 (StableHlo.after (opsC (F := Ideal)) (StableHlo.after (opsB (F := Ideal)) (StableHlo.after (opsA (F := Ideal)) W)))).trans hC_arg4
  have hD_arg5 : (StableHlo.after (opsD (F := Ideal)) (StableHlo.after (opsC (F := Ideal)) (StableHlo.after (opsB (F := Ideal)) (StableHlo.after (opsA (F := Ideal)) W)))) (Proc.devRef .tc main_arg5) = (W (Proc.devRef .tc main_arg5)) := (D_keep_arg5 (StableHlo.after (opsC (F := Ideal)) (StableHlo.after (opsB (F := Ideal)) (StableHlo.after (opsA (F := Ideal)) W)))).trans hC_arg5
  have hE_v59 : (StableHlo.after (opsE (F := Ideal)) (StableHlo.after (opsD (F := Ideal)) (StableHlo.after (opsC (F := Ideal)) (StableHlo.after (opsB (F := Ideal)) (StableHlo.after (opsA (F := Ideal)) W))))) (Proc.devRef .tc main_v59) = val_main_v59 (F := Ideal) (W (Proc.devRef .tc main_arg1)) :=
    E_v59 (StableHlo.after (opsD (F := Ideal)) (StableHlo.after (opsC (F := Ideal)) (StableHlo.after (opsB (F := Ideal)) (StableHlo.after (opsA (F := Ideal)) W)))) (W (Proc.devRef .tc main_arg1)) hD_v1
  have hE_v62 : (StableHlo.after (opsE (F := Ideal)) (StableHlo.after (opsD (F := Ideal)) (StableHlo.after (opsC (F := Ideal)) (StableHlo.after (opsB (F := Ideal)) (StableHlo.after (opsA (F := Ideal)) W))))) (Proc.devRef .tc main_v62) = val_main_v62 (F := Ideal) (W (Proc.devRef .tc main_arg1)) :=
    E_v62 (StableHlo.after (opsD (F := Ideal)) (StableHlo.after (opsC (F := Ideal)) (StableHlo.after (opsB (F := Ideal)) (StableHlo.after (opsA (F := Ideal)) W)))) (W (Proc.devRef .tc main_arg1)) hD_v1
  have hE_cst_14 : (StableHlo.after (opsE (F := Ideal)) (StableHlo.after (opsD (F := Ideal)) (StableHlo.after (opsC (F := Ideal)) (StableHlo.after (opsB (F := Ideal)) (StableHlo.after (opsA (F := Ideal)) W))))) (Proc.devRef .tc main_cst_14) = val_main_cst_14 (F := Ideal) :=
    E_cst_14 (StableHlo.after (opsD (F := Ideal)) (StableHlo.after (opsC (F := Ideal)) (StableHlo.after (opsB (F := Ideal)) (StableHlo.after (opsA (F := Ideal)) W))))
  have hE_v1 : (StableHlo.after (opsE (F := Ideal)) (StableHlo.after (opsD (F := Ideal)) (StableHlo.after (opsC (F := Ideal)) (StableHlo.after (opsB (F := Ideal)) (StableHlo.after (opsA (F := Ideal)) W))))) (Proc.devRef .tc main_v1) = val_main_v1 (F := Ideal) (W (Proc.devRef .tc main_arg1)) := (E_keep_v1 (StableHlo.after (opsD (F := Ideal)) (StableHlo.after (opsC (F := Ideal)) (StableHlo.after (opsB (F := Ideal)) (StableHlo.after (opsA (F := Ideal)) W))))).trans hD_v1
  have hE_v3 : (StableHlo.after (opsE (F := Ideal)) (StableHlo.after (opsD (F := Ideal)) (StableHlo.after (opsC (F := Ideal)) (StableHlo.after (opsB (F := Ideal)) (StableHlo.after (opsA (F := Ideal)) W))))) (Proc.devRef .tc main_v3) = val_main_v3 (F := Ideal) (W (Proc.devRef .tc main_arg1)) := (E_keep_v3 (StableHlo.after (opsD (F := Ideal)) (StableHlo.after (opsC (F := Ideal)) (StableHlo.after (opsB (F := Ideal)) (StableHlo.after (opsA (F := Ideal)) W))))).trans hD_v3
  have hE_v53 : (StableHlo.after (opsE (F := Ideal)) (StableHlo.after (opsD (F := Ideal)) (StableHlo.after (opsC (F := Ideal)) (StableHlo.after (opsB (F := Ideal)) (StableHlo.after (opsA (F := Ideal)) W))))) (Proc.devRef .tc main_v53) = val_main_v53 (F := Ideal) (W (Proc.devRef .tc main_arg0)) (W (Proc.devRef .tc main_arg1)) (W (Proc.devRef .tc main_arg2)) (W (Proc.devRef .tc main_arg3)) := (E_keep_v53 (StableHlo.after (opsD (F := Ideal)) (StableHlo.after (opsC (F := Ideal)) (StableHlo.after (opsB (F := Ideal)) (StableHlo.after (opsA (F := Ideal)) W))))).trans hD_v53
  have hE_arg4 : (StableHlo.after (opsE (F := Ideal)) (StableHlo.after (opsD (F := Ideal)) (StableHlo.after (opsC (F := Ideal)) (StableHlo.after (opsB (F := Ideal)) (StableHlo.after (opsA (F := Ideal)) W))))) (Proc.devRef .tc main_arg4) = (W (Proc.devRef .tc main_arg4)) := (E_keep_arg4 (StableHlo.after (opsD (F := Ideal)) (StableHlo.after (opsC (F := Ideal)) (StableHlo.after (opsB (F := Ideal)) (StableHlo.after (opsA (F := Ideal)) W))))).trans hD_arg4
  have hE_arg5 : (StableHlo.after (opsE (F := Ideal)) (StableHlo.after (opsD (F := Ideal)) (StableHlo.after (opsC (F := Ideal)) (StableHlo.after (opsB (F := Ideal)) (StableHlo.after (opsA (F := Ideal)) W))))) (Proc.devRef .tc main_arg5) = (W (Proc.devRef .tc main_arg5)) := (E_keep_arg5 (StableHlo.after (opsD (F := Ideal)) (StableHlo.after (opsC (F := Ideal)) (StableHlo.after (opsB (F := Ideal)) (StableHlo.after (opsA (F := Ideal)) W))))).trans hD_arg5
  have hF_v63 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_v63) = val_main_v63 (F := Ideal) (W (Proc.devRef .tc main_arg1)) :=
    F_v63 (StableHlo.after (opsE (F := Ideal)) (StableHlo.after (opsD (F := Ideal)) (StableHlo.after (opsC (F := Ideal)) (StableHlo.after (opsB (F := Ideal)) (StableHlo.after (opsA (F := Ideal)) W))))) (W (Proc.devRef .tc main_arg1)) hE_v59 hE_v62 hE_cst_14
  have hF_v1 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_v1) = val_main_v1 (F := Ideal) (W (Proc.devRef .tc main_arg1)) := (F_keep_v1 (StableHlo.after (opsE (F := Ideal)) (StableHlo.after (opsD (F := Ideal)) (StableHlo.after (opsC (F := Ideal)) (StableHlo.after (opsB (F := Ideal)) (StableHlo.after (opsA (F := Ideal)) W)))))).trans hE_v1
  have hF_v3 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_v3) = val_main_v3 (F := Ideal) (W (Proc.devRef .tc main_arg1)) := (F_keep_v3 (StableHlo.after (opsE (F := Ideal)) (StableHlo.after (opsD (F := Ideal)) (StableHlo.after (opsC (F := Ideal)) (StableHlo.after (opsB (F := Ideal)) (StableHlo.after (opsA (F := Ideal)) W)))))).trans hE_v3
  have hF_v53 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_v53) = val_main_v53 (F := Ideal) (W (Proc.devRef .tc main_arg0)) (W (Proc.devRef .tc main_arg1)) (W (Proc.devRef .tc main_arg2)) (W (Proc.devRef .tc main_arg3)) := (F_keep_v53 (StableHlo.after (opsE (F := Ideal)) (StableHlo.after (opsD (F := Ideal)) (StableHlo.after (opsC (F := Ideal)) (StableHlo.after (opsB (F := Ideal)) (StableHlo.after (opsA (F := Ideal)) W)))))).trans hE_v53
  have hF_arg4 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_arg4) = (W (Proc.devRef .tc main_arg4)) := (F_keep_arg4 (StableHlo.after (opsE (F := Ideal)) (StableHlo.after (opsD (F := Ideal)) (StableHlo.after (opsC (F := Ideal)) (StableHlo.after (opsB (F := Ideal)) (StableHlo.after (opsA (F := Ideal)) W)))))).trans hE_arg4
  have hF_arg5 : (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (Proc.devRef .tc main_arg5) = (W (Proc.devRef .tc main_arg5)) := (F_keep_arg5 (StableHlo.after (opsE (F := Ideal)) (StableHlo.after (opsD (F := Ideal)) (StableHlo.after (opsC (F := Ideal)) (StableHlo.after (opsB (F := Ideal)) (StableHlo.after (opsA (F := Ideal)) W)))))).trans hE_arg5
  have hG_v92 : (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))) (Proc.devRef .tc main_v92) = val_main_v92 (F := Ideal) (W (Proc.devRef .tc main_arg0)) (W (Proc.devRef .tc main_arg1)) (W (Proc.devRef .tc main_arg2)) (W (Proc.devRef .tc main_arg3)) :=
    G_v92 (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))) (W (Proc.devRef .tc main_arg0)) (W (Proc.devRef .tc main_arg1)) (W (Proc.devRef .tc main_arg2)) (W (Proc.devRef .tc main_arg3)) hF_v53 hF_v63 hF_v1 hF_v3
  have hG_v53 : (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))) (Proc.devRef .tc main_v53) = val_main_v53 (F := Ideal) (W (Proc.devRef .tc main_arg0)) (W (Proc.devRef .tc main_arg1)) (W (Proc.devRef .tc main_arg2)) (W (Proc.devRef .tc main_arg3)) := (G_keep_v53 (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))).trans hF_v53
  have hG_arg4 : (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))) (Proc.devRef .tc main_arg4) = (W (Proc.devRef .tc main_arg4)) := (G_keep_arg4 (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))).trans hF_arg4
  have hG_arg5 : (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))) (Proc.devRef .tc main_arg5) = (W (Proc.devRef .tc main_arg5)) := (G_keep_arg5 (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))).trans hF_arg5
  have hH_v102 : (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))))) (Proc.devRef .tc main_v102) = val_main_v102 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
    H_v102 (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))) (W (Proc.devRef .tc main_arg0)) (W (Proc.devRef .tc main_arg1)) (W (Proc.devRef .tc main_arg2)) (W (Proc.devRef .tc main_arg3)) (W (Proc.devRef .tc main_arg4)) (W (Proc.devRef .tc main_arg5)) hG_v53 hG_v92 hG_arg4 hG_arg5
  have hI_call3_v2 : (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))) (Proc.devRef .tc main_call3_v2) = val_main_call3_v2 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
    I_call3_v2 (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))))) (W (Proc.devRef .tc main_arg0)) (W (Proc.devRef .tc main_arg1)) (W (Proc.devRef .tc main_arg2)) (W (Proc.devRef .tc main_arg3)) (W (Proc.devRef .tc main_arg4)) (W (Proc.devRef .tc main_arg5)) hH_v102
  have hI_v102 : (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))) (Proc.devRef .tc main_v102) = val_main_v102 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := (I_keep_v102 (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))).trans hH_v102
  have hJ_call3_v5 : (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))))))) (Proc.devRef .tc main_call3_v5) = val_main_call3_v5 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
    J_call3_v5 (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) hI_v102 hI_call3_v2
  have hK_call3_v7 : (StableHlo.after (opsK (F := Ideal)) (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))))) (Proc.devRef .tc main_call3_v7) = val_main_call3_v7 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
    K_call3_v7 (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) hJ_call3_v5
  have hK_call3_v5 : (StableHlo.after (opsK (F := Ideal)) (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))))) (Proc.devRef .tc main_call3_v5) = val_main_call3_v5 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := (K_keep_call3_v5 (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))))).trans hJ_call3_v5
  have hL_v103 : (StableHlo.after (opsL (F := Ideal)) (StableHlo.after (opsK (F := Ideal)) (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W)))))))))))) (Proc.devRef .tc main_v103) = val_main_v103 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
    L_v103 (StableHlo.after (opsK (F := Ideal)) (StableHlo.after (opsJ (F := Ideal)) (StableHlo.after (opsI (F := Ideal)) (StableHlo.after (opsH (F := Ideal)) (StableHlo.after (opsG (F := Ideal)) (StableHlo.after (opsF (F := Ideal)) (StableHlo.after (opsE (F := Ideal)) (StableHlo.after (opsD (F := Ideal)) (StableHlo.after (opsC (F := Ideal)) (StableHlo.after (opsB (F := Ideal)) (StableHlo.after (opsA (F := Ideal)) W))))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) hK_call3_v5 hK_call3_v7
  exact hL_v103

/-- The line writes no argument. -/
theorem kept (W : Valuation τ sig (Elt Ideal)) :
    StableHlo.after (ops (F := Ideal)) W (Proc.devRef .tc main_arg0) = W (Proc.devRef .tc main_arg0)
    ∧ StableHlo.after (ops (F := Ideal)) W (Proc.devRef .tc main_arg1) = W (Proc.devRef .tc main_arg1)
    ∧ StableHlo.after (ops (F := Ideal)) W (Proc.devRef .tc main_arg2) = W (Proc.devRef .tc main_arg2)
    ∧ StableHlo.after (ops (F := Ideal)) W (Proc.devRef .tc main_arg3) = W (Proc.devRef .tc main_arg3)
    ∧ StableHlo.after (ops (F := Ideal)) W (Proc.devRef .tc main_arg4) = W (Proc.devRef .tc main_arg4)
    ∧ StableHlo.after (ops (F := Ideal)) W (Proc.devRef .tc main_arg5) = W (Proc.devRef .tc main_arg5) := by
  rw [after_ops]
  exact ⟨
    ((((((((((((L_keep_arg0 _).trans (K_keep_arg0 _)).trans (J_keep_arg0 _)).trans (I_keep_arg0 _)).trans (H_keep_arg0 _)).trans (G_keep_arg0 _)).trans (F_keep_arg0 _)).trans (E_keep_arg0 _)).trans (D_keep_arg0 _)).trans (C_keep_arg0 _)).trans (B_keep_arg0 _)).trans (A_keep_arg0 _)),
    ((((((((((((L_keep_arg1 _).trans (K_keep_arg1 _)).trans (J_keep_arg1 _)).trans (I_keep_arg1 _)).trans (H_keep_arg1 _)).trans (G_keep_arg1 _)).trans (F_keep_arg1 _)).trans (E_keep_arg1 _)).trans (D_keep_arg1 _)).trans (C_keep_arg1 _)).trans (B_keep_arg1 _)).trans (A_keep_arg1 _)),
    ((((((((((((L_keep_arg2 _).trans (K_keep_arg2 _)).trans (J_keep_arg2 _)).trans (I_keep_arg2 _)).trans (H_keep_arg2 _)).trans (G_keep_arg2 _)).trans (F_keep_arg2 _)).trans (E_keep_arg2 _)).trans (D_keep_arg2 _)).trans (C_keep_arg2 _)).trans (B_keep_arg2 _)).trans (A_keep_arg2 _)),
    ((((((((((((L_keep_arg3 _).trans (K_keep_arg3 _)).trans (J_keep_arg3 _)).trans (I_keep_arg3 _)).trans (H_keep_arg3 _)).trans (G_keep_arg3 _)).trans (F_keep_arg3 _)).trans (E_keep_arg3 _)).trans (D_keep_arg3 _)).trans (C_keep_arg3 _)).trans (B_keep_arg3 _)).trans (A_keep_arg3 _)),
    ((((((((((((L_keep_arg4 _).trans (K_keep_arg4 _)).trans (J_keep_arg4 _)).trans (I_keep_arg4 _)).trans (H_keep_arg4 _)).trans (G_keep_arg4 _)).trans (F_keep_arg4 _)).trans (E_keep_arg4 _)).trans (D_keep_arg4 _)).trans (C_keep_arg4 _)).trans (B_keep_arg4 _)).trans (A_keep_arg4 _)),
    ((((((((((((L_keep_arg5 _).trans (K_keep_arg5 _)).trans (J_keep_arg5 _)).trans (I_keep_arg5 _)).trans (H_keep_arg5 _)).trans (G_keep_arg5 _)).trans (F_keep_arg5 _)).trans (E_keep_arg5 _)).trans (D_keep_arg5 _)).trans (C_keep_arg5 _)).trans (B_keep_arg5 _)).trans (A_keep_arg5 _))⟩

/-- On every device, from any memory with zero counters: every weakly fair execution of the reference terminates with the
    result at the last stage of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103)
        = val_main_v103 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v103).trans (result_eq (launchContents m c)),
       (h c main_arg0).trans (kept (launchContents m c)).1,
       (h c main_arg1).trans (kept (launchContents m c)).2.1,
       (h c main_arg2).trans (kept (launchContents m c)).2.2.1,
       (h c main_arg3).trans (kept (launchContents m c)).2.2.2.1,
       (h c main_arg4).trans (kept (launchContents m c)).2.2.2.2.1,
       (h c main_arg5).trans (kept (launchContents m c)).2.2.2.2.2⟩)
    (run_seq scopedRefs_eq scopedSems_eq defs main (fun _ => ops) main_eq (fun _ => ops_sub) m ρ)

end Cert.ReferenceIdeal.RunStaged

end
-- ==== Proof.lean ====
/- The proof of `Cert.Claim`: a two-layer Chebyshev graph convolution (order two) with a log-softmax, computed by two
   row-blocked kernels among host operations, against the same network written with whole-array operations.

   The three frames: the two kernel programs' are the generated frames; the reference has no kernel, and its frame is its
   run with the result dropped.  The idealization rewrote nothing, so `preserves` is trivial.  `algebraic`: both
   idealized programs end with the result at ONE function of the launch contents of the arguments, `Cert.Cheb.output`
   (Proof/Model.lean) — the kernel program because each region leaves its layer of the arrays it was entered with
   (Proof/Regions.lean over Proof/Payload.lean) and the host stretches are the named graph functions
   (Proof/HostChain.lean, Proof/KernelValue.lean); the reference because its operations are those functions and layers
   read one at a time (Proof/RefLayers.lean over its run, Proof/RefRun.lean).  No law of arithmetic is used beyond the two sides being the same sums,
   so the precondition is never opened. -/
import proofs.«110723_j71940702208089_1_alg».proof.Defs
import proofs.«110723_j71940702208089_1_alg».proof.Proof.Gen.Kernel
import proofs.«110723_j71940702208089_1_alg».proof.Proof.Gen.Kernel.Skeleton
import proofs.«110723_j71940702208089_1_alg».proof.Proof.Gen.Kernel.Launch
import proofs.«110723_j71940702208089_1_alg».proof.Proof.Gen.Kernel.Points
import proofs.«110723_j71940702208089_1_alg».proof.Proof.Gen.Kernel.Frame
import proofs.«110723_j71940702208089_1_alg».proof.Proof.Gen.KernelIdeal
import proofs.«110723_j71940702208089_1_alg».proof.Proof.Gen.KernelIdeal.Skeleton
import proofs.«110723_j71940702208089_1_alg».proof.Proof.Gen.KernelIdeal.Launch
import proofs.«110723_j71940702208089_1_alg».proof.Proof.Gen.KernelIdeal.Points
import proofs.«110723_j71940702208089_1_alg».proof.Proof.Gen.KernelIdeal.Frame
import proofs.«110723_j71940702208089_1_alg».proof.Proof.Gen.ReferenceIdeal
import proofs.«110723_j71940702208089_1_alg».proof.Proof.Gen.Pre_finite_inputs
import proofs.«110723_j71940702208089_1_alg».proof.Proof.KernelValue
import proofs.«110723_j71940702208089_1_alg».proof.Proof.RefLayers
import proofs.«110723_j71940702208089_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunStaged.run m ρ)

theorem preserves : Cert.preserves_Kernel_KernelIdeal := trivial

/-- Both idealized programs end with the result at the network's output of the arguments, which agree. -/
theorem algebraic : Cert.algebraic_KernelIdeal_ReferenceIdeal := by
  intro m ρ m' ρ' _ hagree
  refine ⟨_, Cert.Cheb.kernel_run m ρ, ?_⟩
  refine (θ_run Cert.ReferenceIdeal.defs _ _).mono (fun _ h c => ⟨(h c).1.trans ?_, (h c).2⟩)
    (Cert.ReferenceIdeal.RunStaged.run m' ρ')
  rw [Cert.Cheb.Ref.output_ref,
    (hagree c).1, (hagree c).2.1, (hagree c).2.2.1, (hagree c).2.2.2.1, (hagree c).2.2.2.2.1, (hagree c).2.2.2.2.2]
  all_goals rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
